-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x5 : Shape := ⟨2, ![1000000, 5]⟩
abbrev S2x32000000 : Shape := ⟨2, ![2, 32000000]⟩
abbrev S5x5 : Shape := ⟨2, ![5, 5]⟩
abbrev S5 : Shape := ⟨1, ![5]⟩
abbrev S5x1 : Shape := ⟨2, ![5, 1]⟩
abbrev S1 : Shape := ⟨1, ![1]⟩
abbrev S_ : Shape := ⟨0, ![]⟩

class Facts : Prop where
  bcast_S_S1000000x5 : S_.BroadcastsInDim S1000000x5 (![] : Fin 0 → Fin S1000000x5.rank)
  reducesTo_S1000000x5_S_d0_1 : S1000000x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S5 .f32) (main_arg6 : FVec F S5x1 .f32) (main_arg7 : FVec F S1 .f32) (main_v13 : IVec S_ 1) (main_v16 : IVec S5x5 1) : IVec S_ 1 :=
  let main_c_5 : IVec S_ 1 := constantI S_ 1 1#1
  let main_v17 : IVec S_ 1 := (fun x v => Host.reduce IntOp.andi x v reducesTo_S5x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x1 .f32 := Host.absf main_arg6
  let main_cst_8 : FVec F S_ .f32 := constant S_ .f32 0x7F800000#32
  let main_v25 : FVec F S5x1 .f32 := broadcastInDim S5x1 ![] bcast_S_S5x1 main_cst_8
  let main_v26 : IVec S5x1 1 := cmpf .olt main_v24 main_v25
  let main_c_9 : IVec S_ 1 := constantI S_ 1 1#1
  let main_v27 : IVec S_ 1 := (fun x v => Host.reduce IntOp.andi x v reducesTo_S5x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1000000x5 .f32) (main_arg1 : IVec S2x32000000 32) (main_arg2 : FVec F S5x5 .f32) (main_arg3 : FVec F S5 .f32) (main_arg4 : FVec F S5x5 .f32) (main_arg5 : FVec F S5 .f32) (main_arg6 : FVec F S5x1 .f32) (main_arg7 : FVec F S1 .f32) : IVec S_ 1 :=
  let main_v0 : FVec F S1000000x5 .f32 := Host.absf main_arg0
  let main_cst : FVec F S_ .f32 := constant S_ .f32 0x7F800000#32
  let main_v1 : FVec F S1000000x5 .f32 := broadcastInDim S1000000x5 ![] bcast_S_S1000000x5 main_cst
  let main_v2 : IVec S1000000x5 1 := cmpf .olt main_v0 main_v1
  let main_c : IVec S_ 1 := constantI S_ 1 1#1
  let main_v3 : IVec S_ 1 := (fun x v => Host.reduce IntOp.andi x v reducesTo_S1000000x5_S_d0_1 h_S_) main_v2 main_c
  let main_v4 : FVec F S5x5 .f32 := Host.absf main_arg2
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x5 .f32 := Host.absf main_arg4
  let main_cst_4 : FVec F S_ .f32 := constant S_ .f32 0x7F800000#32
  let main_v15 : FVec F S5x5 .f32 := broadcastInDim S5x5 ![] bcast_S_S5x5 main_cst_4
  let main_v16 : IVec S5x5 1 := cmpf .olt main_v14 main_v15
  fn_part1 (F := F) main_arg5 main_arg6 main_arg7 main_v13 main_v16
-- ==== Kernel.lean ====
abbrev S1000000x5 : Shape := ⟨2, ![1000000, 5]⟩
abbrev S2x32000000 : Shape := ⟨2, ![2, 32000000]⟩
abbrev S5x5 : Shape := ⟨2, ![5, 5]⟩
abbrev S5 : Shape := ⟨1, ![5]⟩
abbrev S5x1 : Shape := ⟨2, ![5, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S1000000x1 : Shape := ⟨2, ![1000000, 1]⟩
abbrev S8000x5 : Shape := ⟨2, ![8000, 5]⟩
abbrev S8000x1 : Shape := ⟨2, ![8000, 1]⟩
abbrev S33000000x5 : Shape := ⟨2, ![33000000, 5]⟩
abbrev S1x5 : Shape := ⟨2, ![1, 5]⟩
abbrev S1x1 : Shape := ⟨2, ![1, 1]⟩

abbrev nBuf : Space → Nat
  | .hbm => 62
  | .vmem => 24
  | .smem => 0
  | _ => 0

abbrev bufTy : (tb : Table) → Fin (tcTables nBuf tb) → BufTy
  | .hbm, ⟨0, _⟩ => ⟨S1000000x5, .f32⟩
  | .hbm, ⟨1, _⟩ => ⟨S2x32000000, .i32⟩
  | .hbm, ⟨2, _⟩ => ⟨S5x5, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S5x1, .f32⟩
  | .hbm, ⟨7, _⟩ => ⟨S1, .f32⟩
  | .hbm, ⟨8, _⟩ => ⟨S1000000, .i32⟩
  | .hbm, ⟨9, _⟩ => ⟨S1x32000000, .i32⟩
  | .hbm, ⟨10, _⟩ => ⟨S32000000, .i32⟩
  | .hbm, ⟨11, _⟩ => ⟨S33000000, .i32⟩
  | .hbm, ⟨12, _⟩ => ⟨S1x32000000, .i32⟩
  | .hbm, ⟨13, _⟩ => ⟨S32000000, .i32⟩
  | .hbm, ⟨14, _⟩ => ⟨S33000000, .i32⟩
  | .hbm, ⟨15, _⟩ => ⟨S_, .f32⟩
  | .hbm, ⟨16, _⟩ => ⟨S33000000, .f32⟩
  | .hbm, ⟨17, _⟩ => ⟨S_, .f32⟩
  | .hbm, ⟨18, _⟩ => ⟨S1000000, .f32⟩
  | .hbm, ⟨19, _⟩ => ⟨S33000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .i1⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S1000000x1, .f32⟩
  | .hbm, ⟨30, _⟩ => ⟨S1000000x5, .f32⟩
  | .hbm, ⟨31, _⟩ => ⟨S_, .i32⟩
  | .hbm, ⟨32, _⟩ => ⟨S33000000, .i32⟩
  | .hbm, ⟨33, _⟩ => ⟨S33000000, .i1⟩
  | .hbm, ⟨34, _⟩ => ⟨S_, .i32⟩
  | .hbm, ⟨35, _⟩ => ⟨S33000000, .i32⟩
  | .hbm, ⟨36, _⟩ => ⟨S33000000, .i32⟩
  | .hbm, ⟨37, _⟩ => ⟨S33000000, .i32⟩
  | .hbm, ⟨38, _⟩ => ⟨S33000000x1, .i32⟩
  | .hbm, ⟨39, _⟩ => ⟨S33000000x5, .f32⟩
  | .hbm, ⟨40, _⟩ => ⟨S_, .f32⟩
  | .hbm, ⟨41, _⟩ => ⟨S1000000x5, .f32⟩
  | .hbm, ⟨42, _⟩ => ⟨S33000000x1, .i32⟩
  | .hbm, ⟨43, _⟩ => ⟨S1000000x5, .f32⟩
  | .hbm, ⟨44, _⟩ => ⟨S1x5, .f32⟩
  | .hbm, ⟨45, _⟩ => ⟨S1000000x5, .f32⟩
  | .hbm, ⟨46, _⟩ => ⟨S_, .i32⟩
  | .hbm, ⟨47, _⟩ => ⟨S33000000, .i32⟩
  | .hbm, ⟨48, _⟩ => ⟨S33000000, .i1⟩
  | .hbm, ⟨49, _⟩ => ⟨S_, .i32⟩
  | .hbm, ⟨50, _⟩ => ⟨S33000000, .i32⟩
  | .hbm, ⟨51, _⟩ => ⟨S33000000, .i32⟩
  | .hbm, ⟨52, _⟩ => ⟨S33000000, .i32⟩
  | .hbm, ⟨53, _⟩ => ⟨S33000000x1, .i32⟩
  | .hbm, ⟨54, _⟩ => ⟨S33000000x5, .f32⟩
  | .hbm, ⟨55, _⟩ => ⟨S_, .f32⟩
  | .hbm, ⟨56, _⟩ => ⟨S1000000x5, .f32⟩
  | .hbm, ⟨57, _⟩ => ⟨S33000000x1, .i32⟩
  | .hbm, ⟨58, _⟩ => ⟨S1000000x5, .f32⟩
  | .hbm, ⟨59, _⟩ => ⟨S1x5, .f32⟩
  | .hbm, ⟨60, _⟩ => ⟨S1x1, .f32⟩
  | .hbm, ⟨61, _⟩ => ⟨S1000000x1, .f32⟩
  | .local _ .vmem, ⟨0, _⟩ => ⟨S8000x5, .f32⟩
  | .local _ .vmem, ⟨1, _⟩ => ⟨S8000x5, .f32⟩
  | .local _ .vmem, ⟨2, _⟩ => ⟨S5x5, .f32⟩
  | .local _ .vmem, ⟨3, _⟩ => ⟨S8000x1, .f32⟩
  | .local _ .vmem, ⟨4, _⟩ => ⟨S8000x1, .f32⟩
  | .local _ .vmem, ⟨5, _⟩ => ⟨S8000x5, .f32⟩
  | .local _ .vmem, ⟨6, _⟩ => ⟨S8000x5, .f32⟩
  | .local _ .vmem, ⟨7, _⟩ => ⟨S8000x5, .f32⟩
  | .local _ .vmem, ⟨8, _⟩ => ⟨S8000x5, .f32⟩
  | .local _ .vmem, ⟨9, _⟩ => ⟨S8000x1, .f32⟩
  | .local _ .vmem, ⟨10, _⟩ => ⟨S8000x1, .f32⟩
  | .local _ .vmem, ⟨11, _⟩ => ⟨S1x5, .f32⟩
  | .local _ .vmem, ⟨12, _⟩ => ⟨S5x5, .f32⟩
  | .local _ .vmem, ⟨13, _⟩ => ⟨S8000x5, .f32⟩
  | .local _ .vmem, ⟨14, _⟩ => ⟨S8000x5, .f32⟩
  | .local _ .vmem, ⟨15, _⟩ => ⟨S8000x5, .f32⟩
  | .local _ .vmem, ⟨16, _⟩ => ⟨S8000x5, .f32⟩
  | .local _ .vmem, ⟨17, _⟩ => ⟨S8000x1, .f32⟩
  | .local _ .vmem, ⟨18, _⟩ => ⟨S8000x1, .f32⟩
  | .local _ .vmem, ⟨19, _⟩ => ⟨S1x5, .f32⟩
  | .local _ .vmem, ⟨20, _⟩ => ⟨S5x1, .f32⟩
  | .local _ .vmem, ⟨21, _⟩ => ⟨S1x1, .f32⟩
  | .local _ .vmem, ⟨22, _⟩ => ⟨S8000x1, .f32⟩
  | .local _ .vmem, ⟨23, _⟩ => ⟨S8000x1, .f32⟩
  | _, _ => ⟨S1000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  shapeCasts_S1000000_S1000000x1 : S1000000.ShapeCasts S1000000x1
  inb_S8000x5_S8000x5_0_0 : ∀ a, (![0, 0] : Fin 2 → Nat) a + S8000x5.size a ≤ S8000x5.size a
  h_S8000x5 : 0 < S8000x5.numel
  inb_S5x5_S5x5_0_0 : ∀ a, (![0, 0] : Fin 2 → Nat) a + S5x5.size a ≤ S5x5.size a
  h_S5x5 : 0 < S5x5.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x5 : S8000x1.Broadcasts S8000x5
  bcast_S_S1000000x5 : S_.BroadcastsInDim S1000000x5 (![] : Fin 0 → Fin S1000000x5.rank)
  shapeCasts_S5_S1x5 : S5.ShapeCasts S1x5
  shapeCasts_S8000x5_S8000x5 : S8000x5.ShapeCasts S8000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8000x5 : S1x5.Broadcasts S8000x5
  shapeCasts_S1_S1x1 : S1.ShapeCasts S1x1
  inb_S5x1_S5x1_0_0 : ∀ a, (![0, 0] : Fin 2 → Nat) a + S5x1.size a ≤ S5x1.size a
  h_S5x1 : 0 < S5x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  scatter_S1000000_S33000000x1_S33000000_n_0_0_1_wf : ScatterDims.WF S1000000 S33000000x1 S33000000 [] [0] [0] 1
  dot_S8000x5_S5x5_S8000x5_1_0_0_1_n_n_wf : DotDims.WF S8000x5 S5x5 S8000x5 [1] [0] [0] [1] [] []
  gather_S1000000x5_S33000000x1_S33000000x5_1_0_n_n_0_1_15_wf : GatherDims.WF S1000000x5 S33000000x1 S33000000x5 [1] [0] [] [0] [] 1 ![1, 5]
  scatter_S1000000x5_S33000000x1_S33000000x5_1_0_0_1_wf : ScatterDims.WF S1000000x5 S33000000x1 S33000000x5 [1] [0] [0] 1
  dot_S8000x5_S5x1_S8000x1_1_0_0_1_n_n_wf : DotDims.WF S8000x5 S5x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x5.size a ≤ S1000000x5.size a
  hwx0_0 : ∀ i : grid0.Coords, EltTy.bits .f32 = 32 ∨ (Rect.block (s := S1000000x5) S8000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1000000x1.size a
  hwx0_2 : ∀ i : grid0.Coords, EltTy.bits .f32 = 32 ∨ (Rect.block (s := S1000000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x5.size a ≤ S1000000x5.size a
  hwx0_3 : ∀ i : grid0.Coords, EltTy.bits .f32 = 32 ∨ (Rect.block (s := S1000000x5) S8000x5.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x5.size a ≤ S1000000x5.size a
  hwx1_0 : ∀ i : grid1.Coords, EltTy.bits .f32 = 32 ∨ (Rect.block (s := S1000000x5) S8000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x5.size a ≤ S5x5.size a
  hwx1_3 : ∀ i : grid1.Coords, EltTy.bits .f32 = 32 ∨ (Rect.block (s := S5x5) S5x5.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x5.size a ≤ S1000000x5.size a
  hwx1_4 : ∀ i : grid1.Coords, EltTy.bits .f32 = 32 ∨ (Rect.block (s := S1000000x5) S8000x5.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x5.size a ≤ S1000000x5.size a
  hwx2_0 : ∀ i : grid2.Coords, EltTy.bits .f32 = 32 ∨ (Rect.block (s := S1000000x5) S8000x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1000000x1.size a
  hwx2_1 : ∀ i : grid2.Coords, EltTy.bits .f32 = 32 ∨ (Rect.block (s := S1000000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5x1.size a ≤ S5x1.size a
  hwx2_3 : ∀ i : grid2.Coords, EltTy.bits .f32 = 32 ∨ (Rect.block (s := S5x1) S5x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x1.size a ≤ S1000000x1.size a
  hwx2_5 : ∀ i : grid2.Coords, EltTy.bits .f32 = 32 ∨ (Rect.block (s := S1000000x1) S8000x1.size (cc2_transform_5 i) (hinb2_5 i)).WholeWords (EltTy.packing .f32)

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def dot_S8000x5_S5x5_S8000x5_1_0_0_1_n_n : DotDims S8000x5 S5x5 S8000x5 where
  lhsContracting := [1]
  rhsContracting := [0]
  lhsNonContracting := [0]
  rhsNonContracting := [1]
  lhsBatch := []
  rhsBatch := []
  wf := dot_S8000x5_S5x5_S8000x5_1_0_0_1_n_n_wf
def gather_S1000000x5_S33000000x1_S33000000x5_1_0_n_n_0_1_15 : GatherDims S1000000x5 S33000000x1 S33000000x5 where
  offsetDims := [1]
  collapsedSliceDims := [0]
  operandBatchingDims := []
  startIndicesBatchingDims := []
  startIndexMap := [0]
  indexVectorDim := 1
  sliceSizes := ![1, 5]
  wf := gather_S1000000x5_S33000000x1_S33000000x5_1_0_n_n_0_1_15_wf
def scatter_S1000000x5_S33000000x1_S33000000x5_1_0_0_1 : ScatterDims S1000000x5 S33000000x1 S33000000x5 where
  updateWindowDims := [1]
  insertedWindowDims := [0]
  scatterDimsToOperandDims := [0]
  indexVectorDim := 1
  wf := scatter_S1000000x5_S33000000x1_S33000000x5_1_0_0_1_wf
def dot_S8000x5_S5x1_S8000x1_1_0_0_1_n_n : DotDims S8000x5 S5x1 S8000x1 where
  lhsContracting := [1]
  rhsContracting := [0]
  lhsNonContracting := [0]
  rhsNonContracting := [1]
  lhsBatch := []
  rhsBatch := []
  wf := dot_S8000x5_S5x1_S8000x1_1_0_0_1_n_n_wf

abbrev win0_0 : Pipeline.Window sig grid0 :=
  Pipeline.Window.ofSpec (Memref.whole main_arg0) S8000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8000x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S8000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S5x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S8000x5.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S8000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S5x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S8000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1000000x5 : Shape := ⟨2, ![1000000, 5]⟩
abbrev S2x32000000 : Shape := ⟨2, ![2, 32000000]⟩
abbrev S5x5 : Shape := ⟨2, ![5, 5]⟩
abbrev S5 : Shape := ⟨1, ![5]⟩
abbrev S5x1 : Shape := ⟨2, ![5, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S33000000x5 : Shape := ⟨2, ![33000000, 5]⟩
abbrev S1x5 : Shape := ⟨2, ![1, 5]⟩
abbrev S1000000x1 : Shape := ⟨2, ![1000000, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S1000000x5, .f32⟩
  | .hbm, ⟨1, _⟩ => ⟨S2x32000000, .i32⟩
  | .hbm, ⟨2, _⟩ => ⟨S5x5, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S5x1, .f32⟩
  | .hbm, ⟨7, _⟩ => ⟨S1, .f32⟩
  | .hbm, ⟨8, _⟩ => ⟨S1000000, .i32⟩
  | .hbm, ⟨9, _⟩ => ⟨S1x32000000, .i32⟩
  | .hbm, ⟨10, _⟩ => ⟨S32000000, .i32⟩
  | .hbm, ⟨11, _⟩ => ⟨S33000000, .i32⟩
  | .hbm, ⟨12, _⟩ => ⟨S1x32000000, .i32⟩
  | .hbm, ⟨13, _⟩ => ⟨S32000000, .i32⟩
  | .hbm, ⟨14, _⟩ => ⟨S33000000, .i32⟩
  | .hbm, ⟨15, _⟩ => ⟨S_, .f32⟩
  | .hbm, ⟨16, _⟩ => ⟨S33000000, .f32⟩
  | .hbm, ⟨17, _⟩ => ⟨S_, .f32⟩
  | .hbm, ⟨18, _⟩ => ⟨S1000000, .f32⟩
  | .hbm, ⟨19, _⟩ => ⟨S33000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .i1⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S1000000x5, .f32⟩
  | .hbm, ⟨30, _⟩ => ⟨S_, .i32⟩
  | .hbm, ⟨31, _⟩ => ⟨S33000000, .i32⟩
  | .hbm, ⟨32, _⟩ => ⟨S33000000, .i1⟩
  | .hbm, ⟨33, _⟩ => ⟨S_, .i32⟩
  | .hbm, ⟨34, _⟩ => ⟨S33000000, .i32⟩
  | .hbm, ⟨35, _⟩ => ⟨S33000000, .i32⟩
  | .hbm, ⟨36, _⟩ => ⟨S33000000, .i32⟩
  | .hbm, ⟨37, _⟩ => ⟨S33000000x1, .i32⟩
  | .hbm, ⟨38, _⟩ => ⟨S33000000, .f32⟩
  | .hbm, ⟨39, _⟩ => ⟨S_, .i32⟩
  | .hbm, ⟨40, _⟩ => ⟨S33000000, .i32⟩
  | .hbm, ⟨41, _⟩ => ⟨S33000000, .i1⟩
  | .hbm, ⟨42, _⟩ => ⟨S_, .i32⟩
  | .hbm, ⟨43, _⟩ => ⟨S33000000, .i32⟩
  | .hbm, ⟨44, _⟩ => ⟨S33000000, .i32⟩
  | .hbm, ⟨45, _⟩ => ⟨S33000000, .i32⟩
  | .hbm, ⟨46, _⟩ => ⟨S33000000x1, .i32⟩
  | .hbm, ⟨47, _⟩ => ⟨S33000000, .f32⟩
  | .hbm, ⟨48, _⟩ => ⟨S33000000, .f32⟩
  | .hbm, ⟨49, _⟩ => ⟨S_, .i32⟩
  | .hbm, ⟨50, _⟩ => ⟨S33000000, .i32⟩
  | .hbm, ⟨51, _⟩ => ⟨S33000000, .i1⟩
  | .hbm, ⟨52, _⟩ => ⟨S_, .i32⟩
  | .hbm, ⟨53, _⟩ => ⟨S33000000, .i32⟩
  | .hbm, ⟨54, _⟩ => ⟨S33000000, .i32⟩
  | .hbm, ⟨55, _⟩ => ⟨S33000000, .i32⟩
  | .hbm, ⟨56, _⟩ => ⟨S33000000x1, .i32⟩
  | .hbm, ⟨57, _⟩ => ⟨S33000000x5, .f32⟩
  | .hbm, ⟨58, _⟩ => ⟨S33000000x1, .f32⟩
  | .hbm, ⟨59, _⟩ => ⟨S33000000x5, .f32⟩
  | .hbm, ⟨60, _⟩ => ⟨S33000000x5, .f32⟩
  | .hbm, ⟨61, _⟩ => ⟨S_, .f32⟩
  | .hbm, ⟨62, _⟩ => ⟨S1000000x5, .f32⟩
  | .hbm, ⟨63, _⟩ => ⟨S33000000x1, .i32⟩
  | .hbm, ⟨64, _⟩ => ⟨S1000000x5, .f32⟩
  | .hbm, ⟨65, _⟩ => ⟨S1x5, .f32⟩
  | .hbm, ⟨66, _⟩ => ⟨S1000000x5, .f32⟩
  | .hbm, ⟨67, _⟩ => ⟨S1000000x5, .f32⟩
  | .hbm, ⟨68, _⟩ => ⟨S_, .f32⟩
  | .hbm, ⟨69, _⟩ => ⟨S1000000x5, .f32⟩
  | .hbm, ⟨70, _⟩ => ⟨S1000000x5, .f32⟩
  | .hbm, ⟨71, _⟩ => ⟨S1000000x5, .f32⟩
  | .hbm, ⟨72, _⟩ => ⟨S_, .i32⟩
  | .hbm, ⟨73, _⟩ => ⟨S33000000, .i32⟩
  | .hbm, ⟨74, _⟩ => ⟨S33000000, .i1⟩
  | .hbm, ⟨75, _⟩ => ⟨S_, .i32⟩
  | .hbm, ⟨76, _⟩ => ⟨S33000000, .i32⟩
  | .hbm, ⟨77, _⟩ => ⟨S33000000, .i32⟩
  | .hbm, ⟨78, _⟩ => ⟨S33000000, .i32⟩
  | .hbm, ⟨79, _⟩ => ⟨S33000000x1, .i32⟩
  | .hbm, ⟨80, _⟩ => ⟨S33000000, .f32⟩
  | .hbm, ⟨81, _⟩ => ⟨S_, .i32⟩
  | .hbm, ⟨82, _⟩ => ⟨S33000000, .i32⟩
  | .hbm, ⟨83, _⟩ => ⟨S33000000, .i1⟩
  | .hbm, ⟨84, _⟩ => ⟨S_, .i32⟩
  | .hbm, ⟨85, _⟩ => ⟨S33000000, .i32⟩
  | .hbm, ⟨86, _⟩ => ⟨S33000000, .i32⟩
  | .hbm, ⟨87, _⟩ => ⟨S33000000, .i32⟩
  | .hbm, ⟨88, _⟩ => ⟨S33000000x1, .i32⟩
  | .hbm, ⟨89, _⟩ => ⟨S33000000, .f32⟩
  | .hbm, ⟨90, _⟩ => ⟨S33000000, .f32⟩
  | .hbm, ⟨91, _⟩ => ⟨S_, .i32⟩
  | .hbm, ⟨92, _⟩ => ⟨S33000000, .i32⟩
  | .hbm, ⟨93, _⟩ => ⟨S33000000, .i1⟩
  | .hbm, ⟨94, _⟩ => ⟨S_, .i32⟩
  | .hbm, ⟨95, _⟩ => ⟨S33000000, .i32⟩
  | .hbm, ⟨96, _⟩ => ⟨S33000000, .i32⟩
  | .hbm, ⟨97, _⟩ => ⟨S33000000, .i32⟩
  | .hbm, ⟨98, _⟩ => ⟨S33000000x1, .i32⟩
  | .hbm, ⟨99, _⟩ => ⟨S33000000x5, .f32⟩
  | .hbm, ⟨100, _⟩ => ⟨S33000000x1, .f32⟩
  | .hbm, ⟨101, _⟩ => ⟨S33000000x5, .f32⟩
  | .hbm, ⟨102, _⟩ => ⟨S33000000x5, .f32⟩
  | .hbm, ⟨103, _⟩ => ⟨S_, .f32⟩
  | .hbm, ⟨104, _⟩ => ⟨S1000000x5, .f32⟩
  | .hbm, ⟨105, _⟩ => ⟨S33000000x1, .i32⟩
  | .hbm, ⟨106, _⟩ => ⟨S1000000x5, .f32⟩
  | .hbm, ⟨107, _⟩ => ⟨S1x5, .f32⟩
  | .hbm, ⟨108, _⟩ => ⟨S1000000x5, .f32⟩
  | .hbm, ⟨109, _⟩ => ⟨S1000000x5, .f32⟩
  | .hbm, ⟨110, _⟩ => ⟨S_, .f32⟩
  | .hbm, ⟨111, _⟩ => ⟨S1000000x5, .f32⟩
  | .hbm, ⟨112, _⟩ => ⟨S1000000x5, .f32⟩
  | .hbm, ⟨113, _⟩ => ⟨S1000000x1, .f32⟩
  | .hbm, ⟨114, _⟩ => ⟨S1x1, .f32⟩
  | .hbm, ⟨115, _⟩ => ⟨S1000000x1, .f32⟩
  | .hbm, ⟨116, _⟩ => ⟨S1000000x1, .f32⟩
  | _, _ => ⟨S1000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S33000000x1_S33000000x5_0_1 : S33000000x1.BroadcastsInDim S33000000x5 (![0, 1] : Fin 2 → Fin S33000000x5.rank)
  bcast_S_S1000000x5 : S_.BroadcastsInDim S1000000x5 (![] : Fin 0 → Fin S1000000x5.rank)
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S33000000x1_S33000000_n_0_0_1_wf : ScatterDims.WF S1000000 S33000000x1 S33000000 [] [0] [0] 1
  dot_S1000000x5_S5x5_S1000000x5_1_0_0_1_n_n_wf : DotDims.WF S1000000x5 S5x5 S1000000x5 [1] [0] [0] [1] [] []
  gather_S1000000_S33000000x1_S33000000_n_0_n_n_0_1_1_wf : GatherDims.WF S1000000 S33000000x1 S33000000 [] [0] [] [0] [] 1 ![1]
  gather_S1000000x5_S33000000x1_S33000000x5_1_0_n_n_0_1_15_wf : GatherDims.WF S1000000x5 S33000000x1 S33000000x5 [1] [0] [] [0] [] 1 ![1, 5]
  scatter_S1000000x5_S33000000x1_S33000000x5_1_0_0_1_wf : ScatterDims.WF S1000000x5 S33000000x1 S33000000x5 [1] [0] [0] 1
  dot_S1000000x5_S5x1_S1000000x1_1_0_0_1_n_n_wf : DotDims.WF S1000000x5 S5x1 S1000000x1 [1] [0] [0] [1] [] []

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def dot_S1000000x5_S5x5_S1000000x5_1_0_0_1_n_n : DotDims S1000000x5 S5x5 S1000000x5 where
  lhsContracting := [1]
  rhsContracting := [0]
  lhsNonContracting := [0]
  rhsNonContracting := [1]
  lhsBatch := []
  rhsBatch := []
  wf := dot_S1000000x5_S5x5_S1000000x5_1_0_0_1_n_n_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def gather_S1000000x5_S33000000x1_S33000000x5_1_0_n_n_0_1_15 : GatherDims S1000000x5 S33000000x1 S33000000x5 where
  offsetDims := [1]
  collapsedSliceDims := [0]
  operandBatchingDims := []
  startIndicesBatchingDims := []
  startIndexMap := [0]
  indexVectorDim := 1
  sliceSizes := ![1, 5]
  wf := gather_S1000000x5_S33000000x1_S33000000x5_1_0_n_n_0_1_15_wf
def scatter_S1000000x5_S33000000x1_S33000000x5_1_0_0_1 : ScatterDims S1000000x5 S33000000x1 S33000000x5 where
  updateWindowDims := [1]
  insertedWindowDims := [0]
  scatterDimsToOperandDims := [0]
  indexVectorDim := 1
  wf := scatter_S1000000x5_S33000000x1_S33000000x5_1_0_0_1_wf
def dot_S1000000x5_S5x1_S1000000x1_1_0_0_1_n_n : DotDims S1000000x5 S5x1 S1000000x1 where
  lhsContracting := [1]
  rhsContracting := [0]
  lhsNonContracting := [0]
  rhsNonContracting := [1]
  lhsBatch := []
  rhsBatch := []
  wf := dot_S1000000x5_S5x1_S1000000x1_1_0_0_1_n_n_wf

class Facts : Prop extends Facts₀ where

variable [Facts]
-- ==== Proof.LibSegmentSum.lean ====
/-
  ROWS GATHERED AND ROWS SCATTER-ADDED, READ AT AN INDEX.

  What \`x[src]\` of a matrix \`x : [N, C]\` at an integer column \`src : [E, 1]\` is: a \`stablehlo.gather\` of whole rows
  (offset axis 1, collapsed axis 0, start index map [0], slice sizes [1, C], index vector axis 1); and what a segment sum
  of rows \`upd : [E, C]\` into \`[N, C]\` at an integer column \`dst : [E, 1]\` is: a \`stablehlo.scatter\` with an \`add\` body
  (update window axis 1, inserted window axis 0, scatter-dims-to-operand-dims [0], index vector axis 1).

  Proved here, for every \`N\`, \`E\`, \`C\` and index width \`w\`, and for ANY dimension-number records with those fields:
  * \`gather_rows_apply\`: element \`(e, c)\` of the gather is the operand at row \`srcRow e\` — the start index \`src[e, 0]\`
    read as a signed integer and clamped into \`[0, N − 1]\` — and column \`c\`;
  * \`scatterAdd_rows_apply\`: element \`(n, c)\` of the exact scatter-add is the operand's element plus the sum, over the
    edges \`e\` whose index \`dst[e, 0]\`, read signed, is \`n\`, of \`upd[e, c]\` (an index outside \`[0, N)\` names no row: its
    update is dropped);
  * \`segsum_apply\`: the two composed.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- In \`Fin 2\`, \`1\` is not \`0\`. -/
theorem fin2_one_ne_zero : ¬ ((1 : Fin 2) = 0) := by decide

/-! ## The gather of rows -/

section Gather
variable {α : Type}

/-- The row gather's dimension numbers as a record literal (its conditions \`wf\` arbitrary). -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge \`e\` reads: its start index \`si[e, 0]\` as a signed integer, clamped into \`[0, N − 1]\`. -/
def srcRow {N E w : Nat} (hN : 0 < N) (si : IVec ⟨2, ![E, 1]⟩ w) (e : Fin E) : Fin N :=
  ⟨min (si (ix2 e 0)).toInt.toNat (N - 1), by omega⟩

/-- Row coordinate of the operand index: the clamped start index. -/
theorem rowsGather_operandIdx_zero {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 0).val = min (si (ix2 e 0)).toInt.toNat (N - 1) := by
  show (rowsGather N E C wf).start (ix2 e c) si 0 + (rowsGather N E C wf).batchCoord (ix2 e c) 0
    + (rowsGather N E C wf).offCoord (ix2 e c) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsGather N E C wf).startIndexMap from List.mem_singleton.mpr rfl)]
  have hsi : (rowsGather N E C wf).siIdx (ix2 e c) ⟨List.idxOf (0 : Fin 2) (rowsGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Column coordinate of the operand index: the result's column. -/
theorem rowsGather_operandIdx_one {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 1).val = c.val := by
  show (rowsGather N E C wf).start (ix2 e c) si 1 + (rowsGather N E C wf).batchCoord (ix2 e c) 1
    + (rowsGather N E C wf).offCoord (ix2 e c) 1 = _
  rw [GatherDims.batchCoord_eq_zero _ _ _ List.not_mem_nil, Nat.add_zero]
  have hs : (rowsGather N E C wf).start (ix2 e c) si 1 = 0 := by
    unfold GatherDims.start
    rw [dif_neg (show (1 : Fin 2) ∉ (rowsGather N E C wf).startIndexMap from
      fun h => absurd (List.mem_singleton.mp h) fin2_one_ne_zero)]
  rw [hs, Nat.zero_add]
  unfold GatherDims.offCoord
  rw [dif_pos (show (1 : Fin 2) ∈ (rowsGather N E C wf).sKept from (GatherDims.mem_sKept _ _).mpr
    ⟨fun h => absurd (List.mem_singleton.mp h) fin2_one_ne_zero, List.not_mem_nil⟩)]
  rfl

/-- The gather of rows at \`(e, c)\`, for the record literal. -/
theorem rowsGather_apply {N E C w : Nat} (hN : 0 < N)
    (wf : GatherDims.WF ⟨2, ![N, C]⟩ ⟨2, ![E, 1]⟩ ⟨2, ![E, C]⟩ [1] [0] [] [0] [] 1 ![1, C])
    (u : (⟨2, ![N, C]⟩ : Shape).Idx → α) (si : IVec ⟨2, ![E, 1]⟩ w) (e : Fin E) (c : Fin C) :
    Host.gather (rowsGather N E C wf) u si (ix2 e c) = u (ix2 (srcRow hN si e) c) := by
  unfold Host.gather
  congr 1
  funext a
  refine Fin.ext ?_
  match a with
  | ⟨0, _⟩ => exact rowsGather_operandIdx_zero wf si e c
  | ⟨1, _⟩ => exact rowsGather_operandIdx_one wf si e c

end Gather

/-! ## The scatter-add of rows -/

section Scatter

/-- The row scatter's dimension numbers as a record literal (its conditions \`wf\` arbitrary). -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (di : IVec ⟨2, ![E, 1]⟩ w) (e : Fin E) (c : Fin C)

/-- The window's start on the row axis: the scatter index \`di[e, 0]\`, read signed. -/
theorem rowsScatter_start_zero :
    (rowsScatter N E C wf).start (ix2 e c) di 0 = (di (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window's start on the column axis: \`0\`. -/
theorem rowsScatter_start_one : (rowsScatter N E C wf).start (ix2 e c) di 1 = 0 := by
  unfold ScatterDims.start
  rw [dif_neg (show (1 : Fin 2) ∉ (rowsScatter N E C wf).scatterDimsToOperandDims from
    fun h => absurd (List.mem_singleton.mp h) fin2_one_ne_zero)]

/-- The window coordinate on the row axis (an inserted axis): \`0\`. -/
theorem rowsScatter_window_zero : (rowsScatter N E C wf).window (ix2 e c) 0 = 0 := by
  unfold ScatterDims.window
  rw [dif_neg (show (0 : Fin 2) ∉ (rowsScatter N E C wf).sKept from
    fun h => of_decide_eq_true (List.mem_filter.mp h).2 (List.mem_singleton.mpr rfl))]

/-- The window coordinate on the column axis: the update's column. -/
theorem rowsScatter_window_one : (rowsScatter N E C wf).window (ix2 e c) 1 = c.val := by
  unfold ScatterDims.window
  rw [dif_pos (show (1 : Fin 2) ∈ (rowsScatter N E C wf).sKept from
    List.mem_filter.mpr ⟨List.mem_finRange _,
      decide_eq_true (fun h => absurd (List.mem_singleton.mp h) fin2_one_ne_zero)⟩)]
  rfl

/-- WHERE AN UPDATE LANDS: update \`(e, c')\` lands on operand element \`(n, c)\` exactly when its scatter index, read
    signed, is \`n\` and its column is \`c\`. -/
theorem rowsScatter_resultIdx?_eq_some_iff (c' : Fin C) (n : Fin N) :
    (rowsScatter N E C wf).resultIdx? (ix2 e c') di = some (ix2 n c) ↔
      (di (ix2 e 0)).toInt = (n.val : ℤ) ∧ c' = c := by
  unfold ScatterDims.resultIdx?
  constructor
  · intro h
    split at h
    · rename_i hh
      have hf := Option.some.inj h
      have e0 : ((rowsScatter N E C wf).start (ix2 e c') di 0 + ((rowsScatter N E C wf).window (ix2 e c') 0 : ℤ)).toNat
          = n.val := congrArg Fin.val (congrFun hf 0)
      have e1 : ((rowsScatter N E C wf).start (ix2 e c') di 1 + ((rowsScatter N E C wf).window (ix2 e c') 1 : ℤ)).toNat
          = c.val := congrArg Fin.val (congrFun hf 1)
      have p0 : 0 ≤ (rowsScatter N E C wf).start (ix2 e c') di 0 + ((rowsScatter N E C wf).window (ix2 e c') 0 : ℤ) :=
        (hh 0).1
      rw [rowsScatter_start_zero, rowsScatter_window_zero] at e0 p0
      rw [rowsScatter_start_one, rowsScatter_window_one] at e1
      refine ⟨by omega, Fin.ext (by omega)⟩
    · exact absurd h (by simp)
  · rintro ⟨ht, rfl⟩
    have hh : ∀ a, 0 ≤ (rowsScatter N E C wf).start (ix2 e c') di a + ((rowsScatter N E C wf).window (ix2 e c') a : ℤ) ∧
        (rowsScatter N E C wf).start (ix2 e c') di a + ((rowsScatter N E C wf).window (ix2 e c') a : ℤ)
          < ((⟨2, ![N, C]⟩ : Shape).size a : ℤ) := by
      refine Fin.forall_fin_two.mpr ⟨?_, ?_⟩
      · rw [rowsScatter_start_zero, rowsScatter_window_zero, ht]
        have := n.isLt
        show _ ∧ _ < (N : ℤ)
        omega
      · rw [rowsScatter_start_one, rowsScatter_window_one]
        have := c'.isLt
        show _ ∧ _ < (C : ℤ)
        omega
    rw [dif_pos hh]
    congr 1
    funext a
    refine Fin.ext ?_
    match a with
    | ⟨0, _⟩ =>
      show ((rowsScatter N E C wf).start (ix2 e c') di 0 + ((rowsScatter N E C wf).window (ix2 e c') 0 : ℤ)).toNat = n.val
      rw [rowsScatter_start_zero, rowsScatter_window_zero, ht]; omega
    | ⟨1, _⟩ =>
      show ((rowsScatter N E C wf).start (ix2 e c') di 1 + ((rowsScatter N E C wf).window (ix2 e c') 1 : ℤ)).toNat = c'.val
      rw [rowsScatter_start_one, rowsScatter_window_one]; omega

/-- THE SCATTER-ADD OF ROWS AT \`(n, c)\`, for the record literal: the operand's element plus the sum of column \`c\` of the
    updates of the edges whose scatter index, read signed, is \`n\`. -/
theorem rowsScatter_add_apply (z : (⟨2, ![N, C]⟩ : Shape).Idx → EReal) (upd : (⟨2, ![E, C]⟩ : Shape).Idx → EReal)
    (n : Fin N) :
    Ideal.hostScatterAdd (rowsScatter N E C wf) z di upd (ix2 n c) =
      z (ix2 n c) + ∑ e ∈ Finset.univ.filter (fun e : Fin E => (di (ix2 e 0)).toInt = (n.val : ℤ)), upd (ix2 e c) := by
  unfold Ideal.hostScatterAdd
  congr 1
  refine Finset.sum_nbij' (fun j => j 0) (fun e => ix2 e c) ?_ ?_ ?_ ?_ ?_
  · intro j hj
    have h := (Finset.mem_filter.mp hj).2
    rw [eq_ix2 j] at h
    exact Finset.mem_filter.mpr ⟨Finset.mem_univ _, ((rowsScatter_resultIdx?_eq_some_iff wf di (j 0) c (j 1) n).mp h).1⟩
  · intro e he
    have h := (Finset.mem_filter.mp he).2
    exact Finset.mem_filter.mpr ⟨Finset.mem_univ _, (rowsScatter_resultIdx?_eq_some_iff wf di e c c n).mpr ⟨h, rfl⟩⟩
  · intro j hj
    have h := (Finset.mem_filter.mp hj).2
    rw [eq_ix2 j] at h
    have hc := ((rowsScatter_resultIdx?_eq_some_iff wf di (j 0) c (j 1) n).mp h).2
    rw [← hc]; exact (eq_ix2 j).symm
  · intro e _; rfl
  · intro j hj
    have h := (Finset.mem_filter.mp hj).2
    rw [eq_ix2 j] at h
    have hc := ((rowsScatter_resultIdx?_eq_some_iff wf di (j 0) c (j 1) n).mp h).2
    rw [← hc]; exact congrArg upd (eq_ix2 j)

end Scatter

/-! ## Any records with those fields, and the two composed -/

section Records
variable {N E C w : Nat}

/-- THE GATHER OF ROWS AT \`(e, c)\`: the operand at row \`srcRow e\` — the start index \`si[e, 0]\` read signed and clamped into
    \`[0, N − 1]\` — and column \`c\`, for any record with the row gather's fields. -/
theorem gather_rows_apply {α : Type} (hN : 0 < N) (g : GatherDims ⟨2, ![N, C]⟩ ⟨2, ![E, 1]⟩ ⟨2, ![E, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C])
    (u : (⟨2, ![N, C]⟩ : Shape).Idx → α) (si : IVec ⟨2, ![E, 1]⟩ w) (e : Fin E) (c : Fin C) :
    Host.gather g u si (ix2 e c) = u (ix2 (srcRow hN si e) c) := by
  obtain ⟨od, cd, ob, sb, sm, iv, ss, wf⟩ := g
  simp only at h1 h2 h3 h4 h5 h6 h7
  subst h1 h2 h3 h4 h5 h6 h7
  exact rowsGather_apply hN wf u si e c

/-- THE SCATTER-ADD OF ROWS AT \`(n, c)\`: the operand's element plus the sum, over the edges \`e\` whose scatter index
    \`di[e, 0]\`, read signed, is \`n\`, of \`upd[e, c]\`, for any record with the row scatter's fields. -/
theorem scatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (z : (⟨2, ![N, C]⟩ : Shape).Idx → EReal) (di : IVec ⟨2, ![E, 1]⟩ w) (upd : (⟨2, ![E, C]⟩ : Shape).Idx → EReal)
    (n : Fin N) (c : Fin C) :
    Ideal.hostScatterAdd d z di upd (ix2 n c) =
      z (ix2 n c) + ∑ e ∈ Finset.univ.filter (fun e : Fin E => (di (ix2 e 0)).toInt = (n.val : ℤ)), upd (ix2 e c) := by
  obtain ⟨uw, iw, sd, iv, wf⟩ := d
  simp only at h1 h2 h3 h4
  subst h1 h2 h3 h4
  exact rowsScatter_add_apply wf di c z upd n

/-- THE SEGMENT SUM OF GATHERED ROWS AT \`(n, c)\`: the operand's element plus the sum, over the edges \`e\` whose
    destination index, read signed, is \`n\`, of column \`c\` of the source row of \`e\`. -/
theorem segsum_apply (hN : 0 < N) (d : ScatterDims ⟨2, ![N, C]⟩ ⟨2, ![E, 1]⟩ ⟨2, ![E, C]⟩)
    (g : GatherDims ⟨2, ![N, C]⟩ ⟨2, ![E, 1]⟩ ⟨2, ![E, C]⟩)
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, C])
    (z u : (⟨2, ![N, C]⟩ : Shape).Idx → EReal) (di si : IVec ⟨2, ![E, 1]⟩ w) (n : Fin N) (c : Fin C) :
    Ideal.hostScatterAdd d z di (Host.gather g u si) (ix2 n c) =
      z (ix2 n c) + ∑ e ∈ Finset.univ.filter (fun e : Fin E => (di (ix2 e 0)).toInt = (n.val : ℤ)),
        u (ix2 (srcRow hN si e) c) := by
  rw [scatterAdd_rows_apply d hd1 hd2 hd3 hd4]
  congr 1
  exact Finset.sum_congr rfl fun e _ => gather_rows_apply hN g hg1 hg2 hg3 hg4 hg5 hg6 hg7 u si e c

end Records

end Cert.Lib.SegmentSum

end
-- ==== Proof.GraphLaw.lean ====
/-
  THE ALGEBRA OF ONE GRAPH-CONVOLUTION STEP ON THE EXTENDED REALS.

  A node's weight is `s = 1/√deg` where the degree is positive and `0` elsewhere; whatever extended real the degree is,
  the weight is a finite non-negative number (`weight_bounds`). Multiplying a finite sum of extended reals by such a
  number distributes over the sum (`sum_mul_of_nonneg_ne_top`: `(∑ f) · d = ∑ f · d` for `0 ≤ d < ⊤`, although
  multiplication does not distribute over the extended reals in general). So scaling the rows of a table by the
  weights before they are gathered, and the aggregated row by the target's weight after, is weighting each edge by the
  product of its two endpoints' weights (`propagate_eq`).
-/
import Idealize.ShloMosaic.PureOps.Ideal
import Idealize.ShloMosaic.PureOps.Ideal.Laws

noncomputable section

open scoped BigOperators

namespace Cert.Gcn

open Idealize.ShloMosaic

/-- A finite non-negative factor distributes over a finite sum of extended reals. -/
theorem sum_mul_of_nonneg_ne_top {ι : Type} (L : Finset ι) (f : ι → EReal) {d : EReal} (h0 : 0 ≤ d) (ht : d ≠ ⊤) :
    (∑ e ∈ L, f e) * d = ∑ e ∈ L, f e * d := by
  classical
  induction L using Finset.induction_on with
  | empty => simp
  | insert a s ha ih =>
    rw [Finset.sum_insert ha, Finset.sum_insert ha, EReal.right_distrib_of_nonneg_of_ne_top h0 ht, ih]

/-- One propagation step. `T e` is the table's entry that edge `e` gathers, `a e` the weight of its source, `b e` the
    weight its target's row is read with, `d` the weight of the node the edges of `L` land on (`b e = d` for them). -/
theorem propagate_eq {ι : Type} (L : Finset ι) (T a b : ι → EReal) {d : EReal} (h0 : 0 ≤ d) (ht : d ≠ ⊤)
    (hb : ∀ e ∈ L, b e = d) :
    (∑ e ∈ L, T e * a e) * d = ∑ e ∈ L, T e * (a e * b e) := by
  rw [sum_mul_of_nonneg_ne_top L _ h0 ht]
  refine Finset.sum_congr rfl fun e he => ?_
  rw [hb e he, mul_assoc]

/-- The weight `where(deg > 0, rsqrt deg, 0)` of any extended-real degree is a finite non-negative number: the
    reciprocal square root of a positive real is a positive real, `rsqrt ⊤ = 0`, and elsewhere the weight is `0`. -/
theorem weight_bounds (deg z z' : EReal) (hz : z = 0) (hz' : z' = 0) :
    0 ≤ Scalar.select (Ideal.cmp .ogt deg z) (Ideal.rsqrt deg) z' ∧
      Scalar.select (Ideal.cmp .ogt deg z) (Ideal.rsqrt deg) z' ≠ ⊤ := by
  subst hz hz'
  unfold Scalar.select Ideal.cmp
  induction deg using EReal.rec with
  | bot => simp
  | top => simp
  | coe r =>
    by_cases h : (0 : ℝ) < r
    · have h' : (0 : EReal) < (r : EReal) := EReal.coe_pos.mpr h
      have hne : r ≠ 0 := ne_of_gt h
      have hnl : ¬ r < 0 := not_lt.mpr h.le
      simp only [h', decide_true, BitVec.ofBool_true, if_true, Ideal.rsqrt_coe, if_neg hnl, if_neg hne]
      refine ⟨?_, EReal.coe_ne_top _⟩
      exact EReal.coe_nonneg.mpr (inv_nonneg.mpr (Real.sqrt_nonneg r))
    · have h' : ¬ (0 : EReal) < (r : EReal) := fun hh => h (EReal.coe_pos.mp hh)
      simp [h']

end Cert.Gcn

end
-- ==== Proof.GcnSpec.lean ====
/-
  THE TWO-LAYER GRAPH CONVOLUTION AS ONE FUNCTION, AND THE KERNEL'S ARRANGEMENT OF IT.

  Over 1000000 nodes and 33000000 edges (the self loops included). Edge `e` gathers the row `src e` of a table — its
  source index read signed and clamped — and lands on the node its target index, read signed, names (`lands n`: the
  edges landing on `n`). With `s` the node weights, one propagation step sends a table `T` to
      `prop T n c = ∑ e ∈ lands n, T (src e) c · (s (src e) · s (tgt e))`,
  `tgt e` the row a gather by the target index reads; a layer is `conv T b = max (prop T + b) 0`; the network is
      `G = (conv (conv (x W1) b1 · W2) b2) · Wl + bl`.
  The kernel scales the table's rows by `s` before the gather and the aggregate by `s n` after it. Because an edge that
  lands on `n` has `tgt e = n`, and `s n` is a finite non-negative number, the two arrangements agree
  (`hidden_eq`, `kernel_eq`).
-/
import proofs.«159880_j21114059227766_2_alg».proof.Proof.LibSegmentSum
import proofs.«159880_j21114059227766_2_alg».proof.Proof.GraphLaw
import Idealize.ShloMosaic.Lib.ValueIdx

noncomputable section

open scoped BigOperators

namespace Cert.Gcn

open Idealize.ShloMosaic Idealize.ShloMosaic.ValueIdx Cert.Lib.SegmentSum

/-- The number of nodes. -/
abbrev NN : Nat := 1000000
/-- The number of edges, the self loops included. -/
abbrev EE : Nat := 33000000
theorem hNN : 0 < NN := by decide

variable (si di wdi : IVec ⟨2, ![EE, 1]⟩ 32) (s : Fin NN → EReal)

/-- The edges whose target index, read signed, is `n`. -/
def lands (n : Fin NN) : Finset (Fin EE) :=
  Finset.univ.filter (fun e : Fin EE => (di (ix2 e 0)).toInt = (n.val : ℤ))

/-- One propagation step: each landing edge's source row, weighted by its two endpoints' weights. -/
def prop (T : Fin NN → Fin 5 → EReal) (n : Fin NN) (c : Fin 5) : EReal :=
  ∑ e ∈ lands di n, T (srcRow hNN si e) c * (s (srcRow hNN si e) * s (srcRow hNN wdi e))

/-- A layer: the propagated table, the bias added, the rectifier. -/
def conv (T : Fin NN → Fin 5 → EReal) (b : Fin 5 → EReal) (n : Fin NN) (c : Fin 5) : EReal :=
  max (prop si di wdi s T n c + b c) 0

/-- A table times a 5×5 matrix. -/
def lin (H : Fin NN → Fin 5 → EReal) (W : Fin 5 → Fin 5 → EReal) (n : Fin NN) (c : Fin 5) : EReal :=
  ∑ k : Fin 5, H n k * W k c

/-- THE NETWORK: two layers and the linear head. -/
def G (x : Fin NN → Fin 5 → EReal) (W1 : Fin 5 → Fin 5 → EReal) (b1 : Fin 5 → EReal) (W2 : Fin 5 → Fin 5 → EReal)
    (b2 : Fin 5 → EReal) (Wl : Fin 5 → EReal) (bl : EReal) (n : Fin NN) : EReal :=
  (∑ k : Fin 5, conv si di wdi s (lin (conv si di wdi s (lin x W1) b1) W2) b2 n k * Wl k) + bl

/-! ## The kernel's arrangement -/

/-- The rows of a table gathered by source and added up over the edges landing on `n`. -/
def agg (T : Fin NN → Fin 5 → EReal) (n : Fin NN) (c : Fin 5) : EReal :=
  ∑ e ∈ lands di n, T (srcRow hNN si e) c

/-- The kernel's hidden entry: the aggregate re-scaled by the node's weight, the bias added, the rectifier. -/
def hidden (A : Fin NN → Fin 5 → EReal) (b : Fin 5 → EReal) (n : Fin NN) (k : Fin 5) : EReal :=
  max (A n k * s n + b k) 0

/-- THE KERNEL'S RESULT ENTRY. -/
def K (x : Fin NN → Fin 5 → EReal) (W1 : Fin 5 → Fin 5 → EReal) (b1 : Fin 5 → EReal) (W2 : Fin 5 → Fin 5 → EReal)
    (b2 : Fin 5 → EReal) (Wl : Fin 5 → EReal) (bl : EReal) (n : Fin NN) : EReal :=
  (∑ k : Fin 5, hidden s (agg si di fun m c =>
      (∑ j : Fin 5, hidden s (agg si di fun m' c' => (∑ i : Fin 5, x m' i * W1 i c') * s m') b1 m j * W2 j c) * s m) b2 n k * Wl k) + bl

variable (hland : ∀ (e : Fin EE) (n : Fin NN), (di (ix2 e 0)).toInt = (n.val : ℤ) → srcRow hNN wdi e = n)
  (hs : ∀ n, 0 ≤ s n ∧ s n ≠ ⊤)

include hland hs in
/-- Scaling the rows before the gather and the aggregate after it is weighting each edge by both endpoints. -/
theorem agg_scaled (T : Fin NN → Fin 5 → EReal) (n : Fin NN) (c : Fin 5) :
    agg si di (fun m c => T m c * s m) n c * s n = prop si di wdi s T n c := by
  unfold agg prop
  refine propagate_eq (lands di n) (fun e => T (srcRow hNN si e) c) (fun e => s (srcRow hNN si e))
    (fun e => s (srcRow hNN wdi e)) (hs n).1 (hs n).2 (fun e he => ?_)
  rw [hland e n (Finset.mem_filter.mp he).2]

include hland hs in
/-- The kernel's hidden entry is the layer's. -/
theorem hidden_eq (T : Fin NN → Fin 5 → EReal) (b : Fin 5 → EReal) (n : Fin NN) (k : Fin 5) :
    hidden s (agg si di fun m c => T m c * s m) b n k = conv si di wdi s T b n k := by
  unfold hidden conv
  rw [agg_scaled si di wdi s hland hs T n k]

include hland hs in
/-- THE KERNEL'S RESULT IS THE NETWORK'S. -/
theorem kernel_eq (x : Fin NN → Fin 5 → EReal) (W1 : Fin 5 → Fin 5 → EReal) (b1 : Fin 5 → EReal)
    (W2 : Fin 5 → Fin 5 → EReal) (b2 : Fin 5 → EReal) (Wl : Fin 5 → EReal) (bl : EReal) (n : Fin NN) :
    K si di s x W1 b1 W2 b2 Wl bl n = G si di wdi s x W1 b1 W2 b2 Wl bl n := by
  unfold K G
  have h1 : (fun (m : Fin NN) (c : Fin 5) =>
      (∑ j : Fin 5, hidden s (agg si di fun m' c' => (∑ i : Fin 5, x m' i * W1 i c') * s m') b1 m j * W2 j c) * s m)
      = fun m c => lin (conv si di wdi s (lin x W1) b1) W2 m c * s m := by
    funext m c
    refine congrArg (· * s m) (Finset.sum_congr rfl fun j _ => ?_)
    exact congrArg (· * W2 j c) (hidden_eq si di wdi s hland hs (lin x W1) b1 m j)
  rw [h1]
  refine congrArg (· + bl) (Finset.sum_congr rfl fun k _ => ?_)
  exact congrArg (· * Wl k) (hidden_eq si di wdi s hland hs (lin (conv si di wdi s (lin x W1) b1) W2) b2 n k)

end Cert.Gcn

end
-- ==== Proof.HostLayer.lean ====
/-
  THE HOST'S GATHER-AND-SEGMENT-SUM STEPS AT AN ENTRY, IN THE NETWORK'S WORDS.

  Over the literal shapes of the graph (1000000 nodes, 33000000 edges, 5 features), for any dimension-number records
  with the row gather's and the row scatter's fields:
  * `aggregate_apply`: rows gathered by a source column and added up by a target column from the zero table are
    `Cert.Gcn.agg` of the table;
  * `weighted_aggregate_apply`: the same with each gathered row first multiplied by a per-edge factor that is the product
    of the two endpoints' weights is `Cert.Gcn.prop` of the table.
-/
import proofs.«159880_j21114059227766_2_alg».proof.Proof.GcnSpec
import proofs.«159880_j21114059227766_2_alg».proof.Proof.LibSegmentSum
import Idealize.ShloMosaic.PureOps.Ideal
import Idealize.ShloMosaic.Lib.ValueIdx

noncomputable section

open scoped BigOperators

namespace Cert.Gcn

open Idealize.ShloMosaic Idealize.ShloMosaic.ValueIdx Cert.Lib.SegmentSum

/-- Rows gathered by source and added up by target, from the zero table. -/
theorem aggregate_apply (d : ScatterDims ⟨2, ![NN, 5]⟩ ⟨2, ![EE, 1]⟩ ⟨2, ![EE, 5]⟩)
    (g : GatherDims ⟨2, ![NN, 5]⟩ ⟨2, ![EE, 1]⟩ ⟨2, ![EE, 5]⟩)
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, 5])
    (z : FVec Ideal ⟨2, ![NN, 5]⟩ .f32) (hz : ∀ i, z i = 0) (T : FVec Ideal ⟨2, ![NN, 5]⟩ .f32)
    (di si : IVec ⟨2, ![EE, 1]⟩ 32) (n : Fin NN) (c : Fin 5) :
    Host.scatterAdd d z di (Host.gather g T si) (ix2 n c) = agg si di (fun m c => T (ix2 m c)) n c := by
  show Ideal.hostScatterAdd d z di (Host.gather g T si) (ix2 n c) = _
  rw [segsum_apply hNN d g hd1 hd2 hd3 hd4 hg1 hg2 hg3 hg4 hg5 hg6 hg7 z T di si n c, hz, zero_add]
  rfl

/-- Rows gathered by source, each multiplied by its edge's factor, and added up by target, from the zero table. -/
theorem weighted_aggregate_apply (d : ScatterDims ⟨2, ![NN, 5]⟩ ⟨2, ![EE, 1]⟩ ⟨2, ![EE, 5]⟩)
    (g : GatherDims ⟨2, ![NN, 5]⟩ ⟨2, ![EE, 1]⟩ ⟨2, ![EE, 5]⟩)
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, 5])
    (z : FVec Ideal ⟨2, ![NN, 5]⟩ .f32) (hz : ∀ i, z i = 0) (T : FVec Ideal ⟨2, ![NN, 5]⟩ .f32)
    (di si wdi : IVec ⟨2, ![EE, 1]⟩ 32) (s : Fin NN → EReal) (w : FVec Ideal ⟨2, ![EE, 5]⟩ .f32)
    (hw : ∀ e c, w (ix2 e c) = s (srcRow hNN si e) * s (srcRow hNN wdi e)) (n : Fin NN) (c : Fin 5) :
    Host.scatterAdd d z di (mulf (Host.gather g T si) w) (ix2 n c) = prop si di wdi s (fun m c => T (ix2 m c)) n c := by
  show Ideal.hostScatterAdd d z di (mulf (Host.gather g T si) w) (ix2 n c) = _
  rw [scatterAdd_rows_apply d hd1 hd2 hd3 hd4 z di _ n c, hz, zero_add]
  unfold prop lands
  refine Finset.sum_congr rfl fun e _ => ?_
  show Host.gather g T si (ix2 e c) * w (ix2 e c) = _
  rw [gather_rows_apply hNN g hg1 hg2 hg3 hg4 hg5 hg6 hg7 T si e c, hw e c]

end Cert.Gcn

end
-- ==== Proof.LibVectorGather.lean ====
/-
  A VECTOR GATHERED BY AN INTEGER COLUMN, READ AT AN INDEX.

  What `v[idx]` of a vector `v : [N]` at an integer column `idx : [E, 1]` is: a `stablehlo.gather` of single elements (no
  offset axis, collapsed axis 0, start index map [0], slice sizes [1], index vector axis 1) into `[E]`.

  Proved here, for every `N`, `E` and index width `w`, and for ANY dimension-number record with those fields:
  * `gather_vec_apply`: element `e` of the gather is the operand at `Cert.Lib.SegmentSum.srcRow e` — the start index
    `idx[e, 0]` read as a signed integer and clamped into `[0, N − 1]`, the same row a gather of whole rows by that column reads.
-/
import Idealize.ShloMosaic.PureOps.Ideal
import Idealize.ShloMosaic.Lib.ValueIdx
import proofs.«159880_j21114059227766_2_alg».proof.Proof.LibSegmentSum

noncomputable section

namespace Cert.Lib.VectorGather

open Idealize.ShloMosaic Idealize.ShloMosaic.ValueIdx Cert.Lib.SegmentSum

variable {α : Type}

/-- The element gather's dimension numbers as a record literal (its conditions `wf` arbitrary). -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of elements at `e`, for the record literal. -/
theorem vecGather_apply {N E w : Nat} (hN : 0 < N)
    (wf : GatherDims.WF ⟨1, ![N]⟩ ⟨2, ![E, 1]⟩ ⟨1, ![E]⟩ [] [0] [] [0] [] 1 ![1])
    (u : (⟨1, ![N]⟩ : Shape).Idx → α) (si : IVec ⟨2, ![E, 1]⟩ w) (e : Fin E) :
    Host.gather (vecGather N E wf) u si (ix1 e) = u (ix1 (srcRow hN si e)) := by
  unfold Host.gather
  congr 1
  funext a
  obtain rfl : a = 0 := Subsingleton.elim _ _
  refine Fin.ext ?_
  show (vecGather N E wf).start (ix1 e) si 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE GATHER OF ELEMENTS AT `e`: the operand at `srcRow e` — the start index `si[e, 0]` read signed and clamped into
    `[0, N − 1]` —, for any record with the element gather's fields. -/
theorem gather_vec_apply {N E w : Nat} (hN : 0 < N) (g : GatherDims ⟨1, ![N]⟩ ⟨2, ![E, 1]⟩ ⟨1, ![E]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1])
    (u : (⟨1, ![N]⟩ : Shape).Idx → α) (si : IVec ⟨2, ![E, 1]⟩ w) (e : Fin E) :
    Host.gather g u si (ix1 e) = u (ix1 (srcRow hN si e)) := by
  obtain ⟨od, cd, ob, sb, sm, iv, ss, wf⟩ := g
  simp only at h1 h2 h3 h4 h5 h6 h7
  subst h1 h2 h3 h4 h5 h6 h7
  exact vecGather_apply hN wf u si e

end Cert.Lib.VectorGather

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.RefValue.lean ====
/-
  THE REFERENCE'S RESULT IS THE NETWORK.

  Read one operation at a time: the products `x W` are the plain sums over the five features; the per-edge factor is the
  product of the node weight gathered by the source and by the target; a layer's aggregate is the segment sum of the
  gathered rows times that factor, then the bias and the rectifier; the head is the last product plus its bias. With the
  source column, the target column and the node weights as the reference computes them, the result at node `n` is
  `Cert.Gcn.G`.
-/
import proofs.«159880_j21114059227766_2_alg».proof.Proof.RefRead
import proofs.«159880_j21114059227766_2_alg».proof.Proof.HostLayer
import proofs.«159880_j21114059227766_2_alg».proof.Proof.LibVectorGather
import proofs.«159880_j21114059227766_2_alg».proof.Proof.LibPlainMatmul

noncomputable section

open scoped BigOperators

namespace Cert.ReferenceIdeal.RefValue

open Cert.ReferenceIdeal Cert.ReferenceIdeal.Gen Cert.ReferenceIdeal.ReadP
open Idealize.ShloMosaic Idealize.ShloMosaic.ValueIdx
open Cert.Gcn Cert.Lib.SegmentSum Cert.Lib.VectorGather Cert.Lib.PlainMatmul

variable (x0 : FVec Ideal S1000000x5 .f32) (x1 : IVec S2x32000000 32) (x2 : FVec Ideal S5x5 .f32) (x3 : FVec Ideal S5 .f32)
  (x4 : FVec Ideal S5x5 .f32) (x5 : FVec Ideal S5 .f32) (x6 : FVec Ideal S5x1 .f32) (x7 : FVec Ideal S1 .f32)

/-- The source column the gathers read (negative indices moved up). -/
abbrev si : IVec S33000000x1 32 := val_main_v21 (F := Ideal) x1
/-- The target column the segment sums read. -/
abbrev di : IVec S33000000x1 32 := val_main_v42 (F := Ideal) x1
/-- The target column the weight gather reads (negative indices moved up). -/
abbrev wdi : IVec S33000000x1 32 := val_main_v28 (F := Ideal) x1
/-- The node weights. -/
abbrev sw : Fin NN → EReal := fun n => val_main_v14 (F := Ideal) x1 (ix1 n)
/-- A table by rows and columns. -/
abbrev tab (T : FVec Ideal S1000000x5 .f32) : Fin NN → Fin 5 → EReal := fun n k => T (ix2 n k)
/-- A 5×5 matrix by rows and columns. -/
abbrev mat (W : FVec Ideal S5x5 .f32) : Fin 5 → Fin 5 → EReal := fun k c => W (ix2 k c)
/-- A bias vector by entries. -/
abbrev vec (b : FVec Ideal S5 .f32) : Fin 5 → EReal := fun k => b (ix1 k)

/-- The zero table a segment sum starts from. -/
theorem zero_table (i : S1000000x5.Idx) : val_main_v41 (F := Ideal) i = 0 :=
  (val_main_v41_apply i).trans Ideal.ofBits_zero_f32

/-- The first product. -/
theorem xw1 (p : Fin NN) (q : Fin 5) : val_main_v15 (F := Ideal) x0 x2 (ix2 p q) = lin (tab x0) (mat x2) p q :=
  dotGeneral_plain_apply dot_S1000000x5_S5x5_S1000000x5_1_0_0_1_n_n rfl rfl rfl rfl rfl rfl none _ x0 x2 p q

/-- The per-edge factor of the first layer: the two endpoints' weights. -/
theorem norm1 (e : Fin EE) (c : Fin 5) :
    val_main_v39 (F := Ideal) x1 (ix2 e c) = sw x1 (srcRow hNN (si x1) e) * sw x1 (srcRow hNN (wdi x1) e) := by
  rw [val_main_v39_apply, val_main_v38_apply, val_main_v30_apply]
  have hi : idx_main_v38 (idx_main_v39 (ix2 e c)) = ix1 e := funext fun a => Fin.ext (by match a with | ⟨0, _⟩ => rfl)
  rw [hi]
  show val_main_v22 (F := Ideal) x1 (ix1 e) * val_main_v29 (F := Ideal) x1 (ix1 e) = _
  unfold val_main_v22 val_main_v29
  rw [gather_vec_apply hNN gather_S1000000_S33000000x1_S33000000_n_0_n_n_0_1_1 rfl rfl rfl rfl rfl rfl rfl,
    gather_vec_apply hNN gather_S1000000_S33000000x1_S33000000_n_0_n_n_0_1_1 rfl rfl rfl rfl rfl rfl rfl]

/-- The first layer's aggregate. -/
theorem agg1 (n : Fin NN) (c : Fin 5) :
    val_main_v43 (F := Ideal) x0 x1 x2 (ix2 n c) = prop (si x1) (di x1) (wdi x1) (sw x1) (lin (tab x0) (mat x2)) n c := by
  have e36 : val_main_v36 (F := Ideal) x1 = val_main_v21 (F := Ideal) x1 := rfl
  have h := weighted_aggregate_apply scatter_S1000000x5_S33000000x1_S33000000x5_1_0_0_1
    gather_S1000000x5_S33000000x1_S33000000x5_1_0_n_n_0_1_15 rfl rfl rfl rfl rfl rfl rfl rfl rfl rfl rfl
    (val_main_v41 (F := Ideal)) zero_table (val_main_v15 (F := Ideal) x0 x2) (di x1) (si x1) (wdi x1) (sw x1)
    (val_main_v39 (F := Ideal) x1) (norm1 x1) n c
  have hT : (fun m c => val_main_v15 (F := Ideal) x0 x2 (ix2 m c)) = lin (tab x0) (mat x2) :=
    funext fun m => funext fun c => xw1 x0 x2 m c
  rw [hT] at h
  exact h

/-- The first bias, broadcast over the rows, reads its entry. -/
theorem bias1 (n : Fin NN) (c : Fin 5) : val_main_v45 (F := Ideal) x3 (ix2 n c) = vec x3 c := by
  rw [val_main_v45_apply, val_main_v44_apply]
  exact congrArg x3 (funext fun a => Fin.ext (by match a with | ⟨0, _⟩ => rfl))

/-- The first layer. -/
theorem hid1 (n : Fin NN) (c : Fin 5) :
    val_main_v47 (F := Ideal) x0 x1 x2 x3 (ix2 n c)
      = conv (si x1) (di x1) (wdi x1) (sw x1) (lin (tab x0) (mat x2)) (vec x3) n c := by
  rw [val_main_v47_apply, val_main_v46_apply, val_main_call1_v0_apply]
  show max (val_main_v43 (F := Ideal) x0 x1 x2 (ix2 n c) + val_main_v45 (F := Ideal) x3 (ix2 n c))
    (Ideal.ofBits .f32 0x00000000#32) = _
  rw [agg1 x0 x1 x2 n c, bias1 x3 n c, Ideal.ofBits_zero_f32]
  rfl

/-- The second product. -/
theorem xw2 (p : Fin NN) (q : Fin 5) :
    val_main_v48 (F := Ideal) x0 x1 x2 x3 x4 (ix2 p q)
      = lin (conv (si x1) (di x1) (wdi x1) (sw x1) (lin (tab x0) (mat x2)) (vec x3)) (mat x4) p q := by
  have h : val_main_v48 (F := Ideal) x0 x1 x2 x3 x4 (ix2 p q)
      = ∑ k : Fin 5, val_main_v47 (F := Ideal) x0 x1 x2 x3 (ix2 p k) * x4 (ix2 k q) :=
    dotGeneral_plain_apply dot_S1000000x5_S5x5_S1000000x5_1_0_0_1_n_n rfl rfl rfl rfl rfl rfl none _
      (val_main_v47 (F := Ideal) x0 x1 x2 x3) x4 p q
  refine h.trans ?_
  unfold lin
  exact Finset.sum_congr rfl fun k _ => congrArg (· * x4 (ix2 k q)) (hid1 x0 x1 x2 x3 p k)

/-- The per-edge factor of the second layer: the same two weights. -/
theorem norm2 (e : Fin EE) (c : Fin 5) :
    val_main_v72 (F := Ideal) x1 (ix2 e c) = sw x1 (srcRow hNN (si x1) e) * sw x1 (srcRow hNN (wdi x1) e) := by
  rw [val_main_v72_apply, val_main_v71_apply, val_main_v63_apply]
  have hi : idx_main_v71 (idx_main_v72 (ix2 e c)) = ix1 e := funext fun a => Fin.ext (by match a with | ⟨0, _⟩ => rfl)
  rw [hi]
  show val_main_v55 (F := Ideal) x1 (ix1 e) * val_main_v62 (F := Ideal) x1 (ix1 e) = _
  unfold val_main_v55 val_main_v62
  rw [gather_vec_apply hNN gather_S1000000_S33000000x1_S33000000_n_0_n_n_0_1_1 rfl rfl rfl rfl rfl rfl rfl,
    gather_vec_apply hNN gather_S1000000_S33000000x1_S33000000_n_0_n_n_0_1_1 rfl rfl rfl rfl rfl rfl rfl]
  rfl

/-- The zero table the second segment sum starts from. -/
theorem zero_table2 (i : S1000000x5.Idx) : val_main_v74 (F := Ideal) i = 0 :=
  (val_main_v74_apply i).trans Ideal.ofBits_zero_f32

/-- The second layer's aggregate. -/
theorem agg2 (n : Fin NN) (c : Fin 5) :
    val_main_v76 (F := Ideal) x0 x1 x2 x3 x4 (ix2 n c)
      = prop (si x1) (di x1) (wdi x1) (sw x1)
          (lin (conv (si x1) (di x1) (wdi x1) (sw x1) (lin (tab x0) (mat x2)) (vec x3)) (mat x4)) n c := by
  have h := weighted_aggregate_apply scatter_S1000000x5_S33000000x1_S33000000x5_1_0_0_1
    gather_S1000000x5_S33000000x1_S33000000x5_1_0_n_n_0_1_15 rfl rfl rfl rfl rfl rfl rfl rfl rfl rfl rfl
    (val_main_v74 (F := Ideal)) zero_table2 (val_main_v48 (F := Ideal) x0 x1 x2 x3 x4) (di x1) (si x1) (wdi x1) (sw x1)
    (val_main_v72 (F := Ideal) x1) (norm2 x1) n c
  have hT : (fun m c => val_main_v48 (F := Ideal) x0 x1 x2 x3 x4 (ix2 m c))
      = lin (conv (si x1) (di x1) (wdi x1) (sw x1) (lin (tab x0) (mat x2)) (vec x3)) (mat x4) :=
    funext fun m => funext fun c => xw2 x0 x1 x2 x3 x4 m c
  rw [hT] at h
  exact h

/-- The second bias, broadcast over the rows, reads its entry. -/
theorem bias2 (n : Fin NN) (c : Fin 5) : val_main_v78 (F := Ideal) x5 (ix2 n c) = vec x5 c := by
  rw [val_main_v78_apply, val_main_v77_apply]
  exact congrArg x5 (funext fun a => Fin.ext (by match a with | ⟨0, _⟩ => rfl))

/-- The second layer. -/
theorem hid2 (n : Fin NN) (c : Fin 5) :
    val_main_v80 (F := Ideal) x0 x1 x2 x3 x4 x5 (ix2 n c)
      = conv (si x1) (di x1) (wdi x1) (sw x1)
          (lin (conv (si x1) (di x1) (wdi x1) (sw x1) (lin (tab x0) (mat x2)) (vec x3)) (mat x4)) (vec x5) n c := by
  rw [val_main_v80_apply, val_main_v79_apply, val_main_call2_v0_apply]
  show max (val_main_v76 (F := Ideal) x0 x1 x2 x3 x4 (ix2 n c) + val_main_v78 (F := Ideal) x5 (ix2 n c))
    (Ideal.ofBits .f32 0x00000000#32) = _
  rw [agg2 x0 x1 x2 x3 x4 n c, bias2 x5 n c, Ideal.ofBits_zero_f32]
  rfl

/-- The last bias, broadcast over the rows, reads its one entry. -/
theorem bias3 (n : Fin NN) (q : Fin 1) : val_main_v83 (F := Ideal) x7 (ix2 n q) = x7 (ix1 0) := by
  rw [val_main_v83_apply, val_main_v82_apply]
  exact congrArg x7 (funext fun a => Fin.ext (by match a with | ⟨0, _⟩ => rfl))

/-- THE REFERENCE'S RESULT at node `n` is the network's. -/
theorem value (n : Fin NN) (q : Fin 1) :
    val_main_v84 (F := Ideal) x0 x1 x2 x3 x4 x5 x6 x7 (ix2 n q)
      = G (si x1) (di x1) (wdi x1) (sw x1) (tab x0) (mat x2) (vec x3) (mat x4) (vec x5) (fun k => x6 (ix2 k 0))
          (x7 (ix1 0)) n := by
  obtain rfl : q = 0 := Subsingleton.elim _ _
  have h : val_main_v81 (F := Ideal) x0 x1 x2 x3 x4 x5 x6 (ix2 n 0)
      = ∑ k : Fin 5, val_main_v80 (F := Ideal) x0 x1 x2 x3 x4 x5 (ix2 n k) * x6 (ix2 k 0) :=
    dotGeneral_plain_apply dot_S1000000x5_S5x1_S1000000x1_1_0_0_1_n_n rfl rfl rfl rfl rfl rfl none _
      (val_main_v80 (F := Ideal) x0 x1 x2 x3 x4 x5) x6 n 0
  rw [val_main_v84_apply]
  show val_main_v81 (F := Ideal) x0 x1 x2 x3 x4 x5 x6 (ix2 n 0) + val_main_v83 (F := Ideal) x7 (ix2 n 0) = _
  rw [h, bias3 x7 n 0]
  unfold G
  refine congrArg (· + x7 (ix1 0)) (Finset.sum_congr rfl fun k _ => ?_)
  exact congrArg (· * x6 (ix2 k 0)) (hid2 x0 x1 x2 x3 x4 x5 n k)

end Cert.ReferenceIdeal.RefValue

end
-- ==== Proof.KernelRun.lean ====
/-
  THE KERNEL PROGRAM'S RUN WITH ITS RESULT NAMED.

  The program is eight segments: three stretches of host operations, then the three kernel regions with a stretch of
  host operations before the second and the third. Every weakly fair execution ends with each buffer the thread
  holds at the contents the segments' fold leaves there (`Gen.W8`): the result buffer at what the third region's
  write-backs leave in it, each argument as launched.
-/
import proofs.«159880_j21114059227766_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.LibColumnForms.lean ====
/-
  COLUMN AND ROW FORMS READ AT AN INDEX.

  The small layout steps between a vector and a matrix with a unit axis, for every extent and element type:
  * `broadcastTo_col_apply`: a column `[a, 1]` broadcast along the lanes to `[a, b]` reads, at `(p, q)`, the column at `(p, 0)`;
  * `broadcastTo_row_apply`: a row `[1, b]` broadcast along the rows to `[a, b]` reads, at `(p, q)`, the row at `(0, q)`;
  * `shapeCast_col_apply`: a vector `[a]` reshaped to a column `[a, 1]` reads, at `(p, 0)`, the vector at `p`;
  * `shapeCast_row_apply`: a vector `[b]` reshaped to a row `[1, b]` reads, at `(0, q)`, the vector at `q`.
-/
import Idealize.ShloMosaic.Lib.Pipeline.Value
import Idealize.ShloMosaic.Lib.ValueIdx

noncomputable section

namespace Cert.Lib.ColumnForms

open Idealize.ShloMosaic Idealize.ShloMosaic.ValueIdx

variable {α : Type} {a b : Nat}

/-- A column broadcast along the lanes. -/
theorem broadcastTo_col_apply (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A row broadcast along the rows. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A vector reshaped to a column. -/
theorem shapeCast_col_apply (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) :=
  shapeCast_apply v h (ix2 p 0) (ix1 p) (by
    rw [Shape.rowMajor_val_one, Shape.rowMajor_val_two]
    show p.val = p.val * 1 + 0
    omega)

/-- A vector reshaped to a row. -/
theorem shapeCast_row_apply (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) :=
  shapeCast_apply v h (ix2 0 q) (ix1 q) (by
    rw [Shape.rowMajor_val_one, Shape.rowMajor_val_two]
    show q.val = 0 * b + q.val
    omega)

end Cert.Lib.ColumnForms

end
-- ==== Proof.Bodies.lean ====
/-
  WHAT EACH KERNEL BODY STORES, ENTRY BY ENTRY, AT THE IDEAL VALUES.

  Over one block of 8000 nodes (rows `p`), with `s` the block's column of node weights:
  * the first body stores `(x W)[p, q] · s[p]`;
  * the second stores `(h W)[p, q] · s[p]` with `h[p, k] = max (a[p, k] · s[p] + b[k]) 0` — the bias added to the
    re-scaled aggregate, then the rectifier;
  * the third stores `(h Wl)[p, 0] + bl` with the same `h`.
  Each matrix product is the plain sum over the five features.
-/
import proofs.«159880_j21114059227766_2_alg».proof.Proof.Gen.KernelIdeal.Skeleton
import proofs.«159880_j21114059227766_2_alg».proof.Proof.LibPlainMatmul
import proofs.«159880_j21114059227766_2_alg».proof.Proof.LibColumnForms
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen
open Cert.Lib.PlainMatmul Cert.Lib.ColumnForms

/-- A sum of products times a factor, rewritten term by term. -/
theorem sum_mul_congr {ι : Type} [Fintype ι] (x x' w w' : ι → EReal) (s s' : EReal) (hx : ∀ k, x k = x' k) (hw : ∀ k, w k = w' k)
    (hs : s = s') : (∑ k, x k * w k) * s = (∑ k, x' k * w' k) * s' := by
  rw [hs]
  exact congrArg (· * s') (Finset.sum_congr rfl fun k _ => by rw [hx k, hw k])

/-- A sum of products plus a term, rewritten term by term. -/
theorem sum_add_congr {ι : Type} [Fintype ι] (x x' w w' : ι → EReal) (s s' : EReal) (hx : ∀ k, x k = x' k) (hw : ∀ k, w k = w' k)
    (hs : s = s') : (∑ k, x k * w k) + s = (∑ k, x' k * w' k) + s' := by
  rw [hs]
  exact congrArg (· + s') (Finset.sum_congr rfl fun k _ => by rw [hx k, hw k])

/-- The hidden entries' product sum times a factor, rewritten term by term. -/
theorem act_sum_mul_congr {ι : Type} [Fintype ι] (a a' b b' w w' : ι → EReal) (s s' : EReal) (ha : ∀ k, a k = a' k)
    (hb : ∀ k, b k = b' k) (hw : ∀ k, w k = w' k) (hs : s = s') :
    (∑ k, max (a k * s + b k) 0 * w k) * s = (∑ k, max (a' k * s' + b' k) 0 * w' k) * s' := by
  rw [hs]
  exact congrArg (· * s') (Finset.sum_congr rfl fun k _ => by rw [ha k, hb k, hw k])

/-- The hidden entries' product sum plus a term, rewritten term by term. -/
theorem act_sum_add_congr {ι : Type} [Fintype ι] (a a' b b' w w' : ι → EReal) (s s' t t' : EReal) (ha : ∀ k, a k = a' k)
    (hb : ∀ k, b k = b' k) (hw : ∀ k, w k = w' k) (hs : s = s') (ht : t = t') :
    (∑ k, max (a k * s + b k) 0 * w k) + t = (∑ k, max (a' k * s' + b' k) 0 * w' k) + t' := by
  rw [hs, ht]
  exact congrArg (· + t') (Finset.sum_congr rfl fun k _ => by rw [ha k, hb k, hw k])

/-- A block's column of weights, broadcast along the five features, reads the row's weight. -/
theorem weight_col_apply (s : Vec Ideal S8000x1 .f32) (p : Fin 8000) (q : Fin 5) :
    broadcastTo S8000x5 (shapeCast S8000x1 s shapeCasts_S8000x1_S8000x1) broadcasts_S8000x1_S8000x5 (ix2 p q) = s (ix2 p 0) :=
  (broadcastTo_col_apply (shapeCast S8000x1 s shapeCasts_S8000x1_S8000x1) broadcasts_S8000x1_S8000x5 p q).trans
    (congrFun (shapeCast_self s shapeCasts_S8000x1_S8000x1) (ix2 p 0))

/-- The bias row, broadcast along the block's rows, reads the feature's bias. -/
theorem bias_row_apply (b : Vec Ideal S1x5 .f32) (p : Fin 8000) (q : Fin 5) :
    broadcastTo S8000x5 (shapeCast S1x5 b shapeCasts_S1x5_S1x5) broadcasts_S1x5_S8000x5 (ix2 p q) = b (ix2 0 q) :=
  (broadcastTo_row_apply (shapeCast S1x5 b shapeCasts_S1x5_S1x5) broadcasts_S1x5_S8000x5 p q).trans
    (congrFun (shapeCast_self b shapeCasts_S1x5_S1x5) (ix2 0 q))

/-- THE FIRST BODY: `(x W)[p, q] · s[p]`. -/
theorem pay0_apply (x : Vec Ideal S8000x5 .f32) (W : Vec Ideal S5x5 .f32) (s : Vec Ideal S8000x1 .f32)
    (p : Fin 8000) (q : Fin 5) :
    k0_pay1 (F := Ideal) x W s (ix2 p q) = (∑ k : Fin 5, x (ix2 p k) * W (ix2 k q)) * s (ix2 p 0) :=
  congrArg₂ (· * ·)
    (matmul_zero_apply dot_S8000x5_S5x5_S8000x5_1_0_0_1_n_n rfl rfl rfl rfl rfl rfl none x W p q)
    (weight_col_apply s p q)

/-- The hidden entry: the aggregate re-scaled by the node's weight, the bias added, the rectifier. -/
def hidden (a : Vec Ideal S8000x5 .f32) (s : Vec Ideal S8000x1 .f32) (b : Vec Ideal S1x5 .f32) : FVec Ideal S8000x5 .f32 :=
  maximumf (addf (mulf (shapeCast S8000x5 a shapeCasts_S8000x5_S8000x5)
      (broadcastTo S8000x5 (shapeCast S8000x1 s shapeCasts_S8000x1_S8000x1) broadcasts_S8000x1_S8000x5))
      (broadcastTo S8000x5 (shapeCast S1x5 b shapeCasts_S1x5_S1x5) broadcasts_S1x5_S8000x5))
    (broadcast S8000x5 (Scalar.ofBits (F := Ideal) .f32 0x00000000#32))

theorem hidden_apply (a : Vec Ideal S8000x5 .f32) (s : Vec Ideal S8000x1 .f32) (b : Vec Ideal S1x5 .f32)
    (p : Fin 8000) (k : Fin 5) :
    hidden a s b (ix2 p k) = max (a (ix2 p k) * s (ix2 p 0) + b (ix2 0 k)) 0 := by
  show max (shapeCast S8000x5 a shapeCasts_S8000x5_S8000x5 (ix2 p k)
      * broadcastTo S8000x5 (shapeCast S8000x1 s shapeCasts_S8000x1_S8000x1) broadcasts_S8000x1_S8000x5 (ix2 p k)
      + broadcastTo S8000x5 (shapeCast S1x5 b shapeCasts_S1x5_S1x5) broadcasts_S1x5_S8000x5 (ix2 p k))
    (Ideal.ofBits .f32 0x00000000#32) = _
  rw [weight_col_apply, bias_row_apply, shapeCast_self, Ideal.ofBits_zero_f32]

/-- THE SECOND BODY: `(h W)[p, q] · s[p]`, `h` the hidden entries of the block. -/
theorem pay1_apply (a : Vec Ideal S8000x5 .f32) (s : Vec Ideal S8000x1 .f32) (b : Vec Ideal S1x5 .f32)
    (W : Vec Ideal S5x5 .f32) (s' : Vec Ideal S8000x1 .f32) (p : Fin 8000) (q : Fin 5) :
    k1_pay1 (F := Ideal) a s b W s' (ix2 p q)
      = (∑ k : Fin 5, max (a (ix2 p k) * s (ix2 p 0) + b (ix2 0 k)) 0 * W (ix2 k q)) * s' (ix2 p 0) := by
  have hm := matmul_zero_apply dot_S8000x5_S5x5_S8000x5_1_0_0_1_n_n rfl rfl rfl rfl rfl rfl none (hidden a s b) W p q
  simp only [hidden_apply] at hm
  exact congrArg₂ (· * ·) hm (weight_col_apply s' p q)

/-- THE THIRD BODY: `(h Wl)[p, 0] + bl`. -/
theorem pay2_apply (a : Vec Ideal S8000x5 .f32) (s : Vec Ideal S8000x1 .f32) (b : Vec Ideal S1x5 .f32)
    (Wl : Vec Ideal S5x1 .f32) (bl : Vec Ideal S1x1 .f32) (p : Fin 8000) (q : Fin 1) :
    k2_pay1 (F := Ideal) a s b Wl bl (ix2 p q)
      = (∑ k : Fin 5, max (a (ix2 p k) * s (ix2 p 0) + b (ix2 0 k)) 0 * Wl (ix2 k q)) + bl (ix2 0 q) := by
  have hm := matmul_zero_apply dot_S8000x5_S5x1_S8000x1_1_0_0_1_n_n rfl rfl rfl rfl rfl rfl none (hidden a s b) Wl p q
  simp only [hidden_apply] at hm
  have hb : broadcastTo S8000x1 (shapeCast S1x1 bl shapeCasts_S1x1_S1x1) broadcasts_S1x1_S8000x1 (ix2 p q) = bl (ix2 0 q) :=
    (broadcastTo_row_apply (shapeCast S1x1 bl shapeCasts_S1x1_S1x1) broadcasts_S1x1_S8000x1 p q).trans
      (congrFun (shapeCast_self bl shapeCasts_S1x1_S1x1) (ix2 0 q))
  exact congrArg₂ (· + ·) hm hb

end Cert.KernelIdeal.Body

end
-- ==== Proof.Region0.lean ====
/-
  REGION 0 AS ONE WHOLE-ARRAY FUNCTION.

  The first kernel runs over 125 blocks of 8000 nodes. Block `t` of the node table and of the weight column are rows
  `8000 t … 8000 t + 7999`; the 5×5 matrix is one block. What point `t` writes back is block `t` of the array
  `out[n, q] = (x W)[n, q] · s[n]`, and the 125 blocks tile the rows, so the region's output array ends holding `out`
  of the arrays the region was entered with.
-/
import proofs.«159880_j21114059227766_2_alg».proof.Proof.Gen.KernelIdeal.Frame
import proofs.«159880_j21114059227766_2_alg».proof.Proof.Bodies
import Idealize.ShloMosaic.Lib.Pipeline.Value

noncomputable section

open scoped BigOperators

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- Entry `(n, q)` of the region's output: `(x W)[n, q] · s[n]`. -/
def entry (x : S1000000x5.Idx → EReal) (W : S5x5.Idx → EReal) (s : S1000000x1.Idx → EReal) (n : Fin 1000000) (q : Fin 5) : EReal :=
  (∑ k : Fin 5, x (ix2 n k) * W (ix2 k q)) * s (ix2 n 0)

/-- The region's output array. -/
def out (x : S1000000x5.Idx → EReal) (W : S5x5.Idx → EReal) (s : S1000000x1.Idx → EReal) : S1000000x5.Idx → EReal :=
  fun i => entry x W s (i 0) (i 1)

/-- The printed index maps over the grid: the row blocks move with the point, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the node table is its rows from `8000 t`. -/
theorem blk_x (c : Dev nD) (t : Fin cfg0.N) (y : S8000x5.Idx) (i : S1000000x5.Idx)
    (h0 : (i 0).val = t.val * 8000 + (y 0).val) (h1 : (i 1).val = (y 1).val) :
    (iblk0 V c 0 t : Vec Ideal S8000x5 .f32) y = (V c (Pipeline.arrRef spec0 0) : S1000000x5.Idx → EReal) i := by
  obtain ⟨e0, e1, -⟩ := idx_facts t
  unfold iblk0
  rw [View.read_apply]
  refine congrArg (V c (Pipeline.arrRef spec0 0)) ?_
  funext a
  apply Fin.ext
  match a with
  | ⟨0, _⟩ => show win0_0.index t (0 : Fin 2) * 8000 + 1 * (y 0).val = (i 0).val; rw [e0, h0]; omega
  | ⟨1, _⟩ => show win0_0.index t (1 : Fin 2) * 5 + 1 * (y 1).val = (i 1).val; rw [e1, h1]; omega

/-- The matrix's one block is the matrix. -/
theorem blk_W (c : Dev nD) (t : Fin cfg0.N) (y : S5x5.Idx) (i : S5x5.Idx)
    (h0 : (i 0).val = (y 0).val) (h1 : (i 1).val = (y 1).val) :
    (iblk0 V c 1 t : Vec Ideal S5x5 .f32) y = (V c (Pipeline.arrRef spec0 1) : S5x5.Idx → EReal) i := by
  obtain ⟨-, -, e0, e1, -⟩ := idx_facts t
  unfold iblk0
  rw [View.read_apply]
  refine congrArg (V c (Pipeline.arrRef spec0 1)) ?_
  funext a
  apply Fin.ext
  match a with
  | ⟨0, _⟩ => show win0_1.index t (0 : Fin 2) * 5 + 1 * (y 0).val = (i 0).val; rw [e0, h0]; omega
  | ⟨1, _⟩ => show win0_1.index t (1 : Fin 2) * 5 + 1 * (y 1).val = (i 1).val; rw [e1, h1]; omega

/-- Block `t` of the weight column is its rows from `8000 t`. -/
theorem blk_s (c : Dev nD) (t : Fin cfg0.N) (y : S8000x1.Idx) (i : S1000000x1.Idx)
    (h0 : (i 0).val = t.val * 8000 + (y 0).val) (h1 : (i 1).val = (y 1).val) :
    (iblk0 V c 2 t : Vec Ideal S8000x1 .f32) y = (V c (Pipeline.arrRef spec0 2) : S1000000x1.Idx → EReal) i := by
  obtain ⟨-, -, -, -, e0, e1, -⟩ := idx_facts t
  unfold iblk0
  rw [View.read_apply]
  refine congrArg (V c (Pipeline.arrRef spec0 2)) ?_
  funext a
  apply Fin.ext
  match a with
  | ⟨0, _⟩ => show win0_2.index t (0 : Fin 2) * 8000 + 1 * (y 0).val = (i 0).val; rw [e0, h0]; omega
  | ⟨1, _⟩ => show win0_2.index t (1 : Fin 2) * 1 + 1 * (y 1).val = (i 1).val; rw [e1, h1]; omega

/-- The body's stored entry, over the blocks of point `t`, is the output array's entry at the block's place. -/
theorem pay_at (c : Dev nD) (t : Fin cfg0.N) (j : S8000x5.Idx) (i : S1000000x5.Idx)
    (h0 : (i 0).val = t.val * 8000 + (j 0).val) (h1 : (i 1).val = (j 1).val) :
    k0_pay1 (F := Ideal) (iblk0 V c 0 t) (iblk0 V c 1 t) (iblk0 V c 2 t) j
      = out (V c (Pipeline.arrRef spec0 0)) (V c (Pipeline.arrRef spec0 1)) (V c (Pipeline.arrRef spec0 2)) i := by
  refine ((congrArg (k0_pay1 (F := Ideal) (iblk0 V c 0 t) (iblk0 V c 1 t) (iblk0 V c 2 t)) (eq_ix2 j)).trans
    (pay0_apply (iblk0 V c 0 t) (iblk0 V c 1 t) (iblk0 V c 2 t) (j 0) (j 1))).trans ?_
  exact Cert.KernelIdeal.Body.sum_mul_congr
    (fun k => (iblk0 V c 0 t : Vec Ideal S8000x5 .f32) (ix2 (j 0) k))
    (fun k => (V c (Pipeline.arrRef spec0 0) : S1000000x5.Idx → EReal) (ix2 (i 0) k))
    (fun k => (iblk0 V c 1 t : Vec Ideal S5x5 .f32) (ix2 k (j 1)))
    (fun k => (V c (Pipeline.arrRef spec0 1) : S5x5.Idx → EReal) (ix2 k (i 1)))
    ((iblk0 V c 2 t : Vec Ideal S8000x1 .f32) (ix2 (j 0) 0))
    ((V c (Pipeline.arrRef spec0 2) : S1000000x1.Idx → EReal) (ix2 (i 0) 0))
    (fun k => blk_x V c t (ix2 (j 0) k) (ix2 (i 0) k) h0 rfl)
    (fun k => blk_W V c t (ix2 k (j 1)) (ix2 k (i 1)) rfl h1)
    (blk_s V c t (ix2 (j 0) 0) (ix2 (i 0) 0) h0 rfl)

/-- WHAT POINT `t` WRITES BACK is block `t` of `out` of the arrays as the region finds them. -/
theorem flushed_eq (c : Dev nD) (t : Fin cfg0.N) :
    (dat0 V c).flushed 3 t = ((cfg0.win 3).blk t).view.read (Elt Ideal)
      (out (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S8000x5) hz, View.ld_unit_zero (S := S5x5) hz, View.ld_unit_zero (S := S8000x1) hz]
  obtain ⟨-, -, -, -, -, -, e0, e1⟩ := idx_facts t
  funext j
  refine pay_at V c t j _ ?_ ?_
  · show win0_3.index t (0 : Fin 2) * 8000 + 1 * (j 0).val = _; rw [e0]; omega
  · show win0_3.index t (1 : Fin 2) * 5 + 1 * (j 1).val = _; rw [e1]; omega

/-- An index of the array is in point `t`'s block iff each coordinate is in the block's range on its axis. -/
theorem mem_blk (t : Fin cfg0.N) (i : S1000000x5.Idx) :
    i ∈ ((cfg0.win 3).blk t).view.set ↔ ∀ a : Fin 2, win0_3.index t a * S8000x5.size a ≤ (i a).val ∧ (i a).val < win0_3.index t a * S8000x5.size a + S8000x5.size a := by
  show i ∈ ((View.whole main_v16).slice (win0_3.rect t)).set ↔ _
  rw [View.set_slice_whole, Rect.mem_set_unit]
  exact Iff.rfl

/-- Row `n` is in the block of point `n / 8000`. -/
theorem cover (i : S1000000x5.Idx) : ∃ t : Fin cfg0.N, (cfg0.win 3).flush t = true ∧ i ∈ ((cfg0.win 3).blk t).view.set := by
  have hi0 : (i 0).val < 1000000 := (i 0).isLt
  have hi1 : (i 1).val < 5 := (i 1).isLt
  have hN : cfg0.N = 125 := N_0
  let t : Fin cfg0.N := ⟨(i 0).val / 8000, by rw [hN]; omega⟩
  obtain ⟨-, -, -, -, -, -, e0, e1⟩ := idx_facts t
  have ht : t.val = (i 0).val / 8000 := rfl
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; rw [e0, ht]; omega
  | ⟨1, _⟩ => show win0_3.index t (1 : Fin 2) * 5 ≤ (i 1).val ∧ (i 1).val < win0_3.index t (1 : Fin 2) * 5 + 5; rw [e1]; omega

/-- THE ARRAY after the region: `out` of the arrays it was entered with. -/
theorem final (c : Dev nD) :
    (dat0 V c).arrAt 3 cfg0.N = out (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.Region1.lean ====
/-
  REGION 1 AS ONE WHOLE-ARRAY FUNCTION.

  The second kernel runs over the same 125 blocks of 8000 nodes. Block `t` of the aggregate table and of the weight
  column are rows `8000 t … 8000 t + 7999`; the bias row and the 5×5 matrix are one block each. What point `t` writes
  back is block `t` of `out[n, q] = (h W)[n, q] · s[n]`, `h[n, k] = max (a[n, k] · s[n] + b[k]) 0`, and the blocks tile the
  rows, so the region's output array ends holding `out` of the arrays the region was entered with.
-/
import proofs.«159880_j21114059227766_2_alg».proof.Proof.Gen.KernelIdeal.Frame
import proofs.«159880_j21114059227766_2_alg».proof.Proof.Bodies
import Idealize.ShloMosaic.Lib.Pipeline.Value

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- Entry `(n, q)` of the region's output: `(h W)[n, q] · s[n]` with `h[n, k] = max (a[n, k] · s[n] + b[k]) 0`. -/
def entry (a : S1000000x5.Idx → EReal) (s : S1000000x1.Idx → EReal) (b : S1x5.Idx → EReal) (W : S5x5.Idx → EReal)
    (n : Fin 1000000) (q : Fin 5) : EReal :=
  (∑ k : Fin 5, max (a (ix2 n k) * s (ix2 n 0) + b (ix2 0 k)) 0 * W (ix2 k q)) * s (ix2 n 0)

/-- The region's output array. -/
def out (a : S1000000x5.Idx → EReal) (s : S1000000x1.Idx → EReal) (b : S1x5.Idx → EReal) (W : S5x5.Idx → EReal) :
    S1000000x5.Idx → EReal :=
  fun i => entry a s b W (i 0) (i 1)

/-- The printed index maps over the grid: the row blocks move with the point, the bias row and the matrix stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ True :=
  (by decide +kernel : ∀ t : Fin grid1.N, _)

/-- Block `t` of the aggregate table is its rows from `8000 t`. -/
theorem blk_a (c : Dev nD) (t : Fin cfg1.N) (y : S8000x5.Idx) (i : S1000000x5.Idx)
    (h0 : (i 0).val = t.val * 8000 + (y 0).val) (h1 : (i 1).val = (y 1).val) :
    (iblk1 V c 0 t : Vec Ideal S8000x5 .f32) y = (V c (Pipeline.arrRef spec1 0) : S1000000x5.Idx → EReal) i := by
  have e0 := (idx_facts t).1
  have e1 := (idx_facts t).2.1
  unfold iblk1
  rw [View.read_apply]
  refine congrArg (V c (Pipeline.arrRef spec1 0)) ?_
  funext a
  apply Fin.ext
  match a with
  | ⟨0, _⟩ => show win1_0.index t (0 : Fin 2) * 8000 + 1 * (y 0).val = (i 0).val; rw [e0, h0]; omega
  | ⟨1, _⟩ => show win1_0.index t (1 : Fin 2) * 5 + 1 * (y 1).val = (i 1).val; rw [e1, h1]; omega

/-- Block `t` of the weight column is its rows from `8000 t`. -/
theorem blk_s (c : Dev nD) (t : Fin cfg1.N) (y : S8000x1.Idx) (i : S1000000x1.Idx)
    (h0 : (i 0).val = t.val * 8000 + (y 0).val) (h1 : (i 1).val = (y 1).val) :
    (iblk1 V c 1 t : Vec Ideal S8000x1 .f32) y = (V c (Pipeline.arrRef spec1 1) : S1000000x1.Idx → EReal) i := by
  have e0 := (idx_facts t).2.2.1
  have e1 := (idx_facts t).2.2.2.1
  unfold iblk1
  rw [View.read_apply]
  refine congrArg (V c (Pipeline.arrRef spec1 1)) ?_
  funext a
  apply Fin.ext
  match a with
  | ⟨0, _⟩ => show win1_1.index t (0 : Fin 2) * 8000 + 1 * (y 0).val = (i 0).val; rw [e0, h0]; omega
  | ⟨1, _⟩ => show win1_1.index t (1 : Fin 2) * 1 + 1 * (y 1).val = (i 1).val; rw [e1, h1]; omega

/-- The bias row's one block is the row. -/
theorem blk_b (c : Dev nD) (t : Fin cfg1.N) (y : S1x5.Idx) (i : S1x5.Idx)
    (h0 : (i 0).val = (y 0).val) (h1 : (i 1).val = (y 1).val) :
    (iblk1 V c 2 t : Vec Ideal S1x5 .f32) y = (V c (Pipeline.arrRef spec1 2) : S1x5.Idx → EReal) i := by
  have e0 := (idx_facts t).2.2.2.2.1
  have e1 := (idx_facts t).2.2.2.2.2.1
  unfold iblk1
  rw [View.read_apply]
  refine congrArg (V c (Pipeline.arrRef spec1 2)) ?_
  funext a
  apply Fin.ext
  match a with
  | ⟨0, _⟩ => show win1_2.index t (0 : Fin 2) * 1 + 1 * (y 0).val = (i 0).val; rw [e0, h0]; omega
  | ⟨1, _⟩ => show win1_2.index t (1 : Fin 2) * 5 + 1 * (y 1).val = (i 1).val; rw [e1, h1]; omega

/-- The matrix's one block is the matrix. -/
theorem blk_W (c : Dev nD) (t : Fin cfg1.N) (y : S5x5.Idx) (i : S5x5.Idx)
    (h0 : (i 0).val = (y 0).val) (h1 : (i 1).val = (y 1).val) :
    (iblk1 V c 3 t : Vec Ideal S5x5 .f32) y = (V c (Pipeline.arrRef spec1 3) : S5x5.Idx → EReal) i := by
  have e0 := (idx_facts t).2.2.2.2.2.2.1
  have e1 := (idx_facts t).2.2.2.2.2.2.2.1
  unfold iblk1
  rw [View.read_apply]
  refine congrArg (V c (Pipeline.arrRef spec1 3)) ?_
  funext a
  apply Fin.ext
  match a with
  | ⟨0, _⟩ => show win1_3.index t (0 : Fin 2) * 5 + 1 * (y 0).val = (i 0).val; rw [e0, h0]; omega
  | ⟨1, _⟩ => show win1_3.index t (1 : Fin 2) * 5 + 1 * (y 1).val = (i 1).val; rw [e1, h1]; omega

/-- The body's stored entry, over the blocks of point `t`, is the output array's entry at the block's place. -/
theorem pay_at (c : Dev nD) (t : Fin cfg1.N) (j : S8000x5.Idx) (i : S1000000x5.Idx)
    (h0 : (i 0).val = t.val * 8000 + (j 0).val) (h1 : (i 1).val = (j 1).val) :
    k1_pay1 (F := Ideal) (iblk1 V c 0 t) (iblk1 V c 1 t) (iblk1 V c 2 t) (iblk1 V c 3 t) (iblk1 V c 1 t) j
      = out (V c (Pipeline.arrRef spec1 0)) (V c (Pipeline.arrRef spec1 1)) (V c (Pipeline.arrRef spec1 2)) (V c (Pipeline.arrRef spec1 3)) i := by
  refine ((congrArg (k1_pay1 (F := Ideal) (iblk1 V c 0 t) (iblk1 V c 1 t) (iblk1 V c 2 t) (iblk1 V c 3 t) (iblk1 V c 1 t)) (eq_ix2 j)).trans
    (pay1_apply (iblk1 V c 0 t) (iblk1 V c 1 t) (iblk1 V c 2 t) (iblk1 V c 3 t) (iblk1 V c 1 t) (j 0) (j 1))).trans ?_
  exact Cert.KernelIdeal.Body.act_sum_mul_congr
    (fun k => (iblk1 V c 0 t : Vec Ideal S8000x5 .f32) (ix2 (j 0) k))
    (fun k => (V c (Pipeline.arrRef spec1 0) : S1000000x5.Idx → EReal) (ix2 (i 0) k))
    (fun k => (iblk1 V c 2 t : Vec Ideal S1x5 .f32) (ix2 0 k))
    (fun k => (V c (Pipeline.arrRef spec1 2) : S1x5.Idx → EReal) (ix2 0 k))
    (fun k => (iblk1 V c 3 t : Vec Ideal S5x5 .f32) (ix2 k (j 1)))
    (fun k => (V c (Pipeline.arrRef spec1 3) : S5x5.Idx → EReal) (ix2 k (i 1)))
    ((iblk1 V c 1 t : Vec Ideal S8000x1 .f32) (ix2 (j 0) 0))
    ((V c (Pipeline.arrRef spec1 1) : S1000000x1.Idx → EReal) (ix2 (i 0) 0))
    (fun k => blk_a V c t (ix2 (j 0) k) (ix2 (i 0) k) h0 rfl)
    (fun k => blk_b V c t (ix2 0 k) (ix2 0 k) rfl rfl)
    (fun k => blk_W V c t (ix2 k (j 1)) (ix2 k (i 1)) rfl h1)
    (blk_s V c t (ix2 (j 0) 0) (ix2 (i 0) 0) h0 rfl)

/-- WHAT POINT `t` WRITES BACK is block `t` of `out` of the arrays as the region finds them. -/
theorem flushed_eq (c : Dev nD) (t : Fin cfg1.N) :
    (dat1 V c).flushed 4 t = ((cfg1.win 4).blk t).view.read (Elt Ideal)
      (out (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S8000x5) hz, View.ld_unit_zero (S := S5x5) hz, View.ld_unit_zero (S := S8000x1) hz,
    View.ld_unit_zero (S := S1x5) hz]
  have e0 := (idx_facts t).2.2.2.2.2.2.2.2.1
  have e1 := (idx_facts t).2.2.2.2.2.2.2.2.2.1
  funext j
  refine pay_at V c t j _ ?_ ?_
  · show win1_4.index t (0 : Fin 2) * 8000 + 1 * (j 0).val = _; rw [e0]; omega
  · show win1_4.index t (1 : Fin 2) * 5 + 1 * (j 1).val = _; rw [e1]; omega

/-- An index of the array is in point `t`'s block iff each coordinate is in the block's range on its axis. -/
theorem mem_blk (t : Fin cfg1.N) (i : S1000000x5.Idx) :
    i ∈ ((cfg1.win 4).blk t).view.set ↔ ∀ a : Fin 2, win1_4.index t a * S8000x5.size a ≤ (i a).val ∧ (i a).val < win1_4.index t a * S8000x5.size a + S8000x5.size a := by
  show i ∈ ((View.whole main_v28).slice (win1_4.rect t)).set ↔ _
  rw [View.set_slice_whole, Rect.mem_set_unit]
  exact Iff.rfl

/-- Row `n` is in the block of point `n / 8000`. -/
theorem cover (i : S1000000x5.Idx) : ∃ t : Fin cfg1.N, (cfg1.win 4).flush t = true ∧ i ∈ ((cfg1.win 4).blk t).view.set := by
  have hi0 : (i 0).val < 1000000 := (i 0).isLt
  have hi1 : (i 1).val < 5 := (i 1).isLt
  have hN : cfg1.N = 125 := N_1
  let t : Fin cfg1.N := ⟨(i 0).val / 8000, by rw [hN]; omega⟩
  have e0 := (idx_facts t).2.2.2.2.2.2.2.2.1
  have e1 := (idx_facts t).2.2.2.2.2.2.2.2.2.1
  have ht : t.val = (i 0).val / 8000 := rfl
  refine ⟨t, flush1_4 t, ?_⟩
  rw [mem_blk]
  intro a
  match a with
  | ⟨0, _⟩ => show win1_4.index t (0 : Fin 2) * 8000 ≤ (i 0).val ∧ (i 0).val < win1_4.index t (0 : Fin 2) * 8000 + 8000; rw [e0, ht]; omega
  | ⟨1, _⟩ => show win1_4.index t (1 : Fin 2) * 5 ≤ (i 1).val ∧ (i 1).val < win1_4.index t (1 : Fin 2) * 5 + 5; rw [e1]; omega

/-- THE ARRAY after the region: `out` of the arrays it was entered with. -/
theorem final (c : Dev nD) :
    (dat1 V c).arrAt 4 cfg1.N = out (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) cover

end Cert.KernelIdeal.Region1

end
-- ==== Proof.Region2.lean ====
/-
  REGION 2 AS ONE WHOLE-ARRAY FUNCTION.

  The third kernel runs over the same 125 blocks of 8000 nodes. Block `t` of the aggregate table, of the weight column
  and of the result column are rows `8000 t … 8000 t + 7999`; the bias row, the 5×1 matrix and the 1×1 bias are one
  block each. What point `t` writes back is block `t` of `out[n, 0] = (h Wl)[n, 0] + bl`,
  `h[n, k] = max (a[n, k] · s[n] + b[k]) 0`, and the blocks tile the rows, so the result array ends holding `out` of the
  arrays the region was entered with.
-/
import proofs.«159880_j21114059227766_2_alg».proof.Proof.Gen.KernelIdeal.Frame
import proofs.«159880_j21114059227766_2_alg».proof.Proof.Bodies
import Idealize.ShloMosaic.Lib.Pipeline.Value

noncomputable section

open scoped BigOperators

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- Entry `(n, q)` of the result: `(h Wl)[n, q] + bl` with `h[n, k] = max (a[n, k] · s[n] + b[k]) 0`. -/
def entry (a : S1000000x5.Idx → EReal) (s : S1000000x1.Idx → EReal) (b : S1x5.Idx → EReal) (Wl : S5x1.Idx → EReal)
    (bl : S1x1.Idx → EReal) (n : Fin 1000000) (q : Fin 1) : EReal :=
  (∑ k : Fin 5, max (a (ix2 n k) * s (ix2 n 0) + b (ix2 0 k)) 0 * Wl (ix2 k q)) + bl (ix2 0 q)

/-- The result array. -/
def out (a : S1000000x5.Idx → EReal) (s : S1000000x1.Idx → EReal) (b : S1x5.Idx → EReal) (Wl : S5x1.Idx → EReal)
    (bl : S1x1.Idx → EReal) : S1000000x1.Idx → EReal :=
  fun i => entry a s b Wl bl (i 0) (i 1)

/-- The printed index maps over the grid: the row blocks move with the point, the small operands stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ True :=
  (by decide +kernel : ∀ t : Fin grid2.N, _)

/-- Block `t` of the aggregate table is its rows from `8000 t`. -/
theorem blk_a (c : Dev nD) (t : Fin cfg2.N) (y : S8000x5.Idx) (i : S1000000x5.Idx)
    (h0 : (i 0).val = t.val * 8000 + (y 0).val) (h1 : (i 1).val = (y 1).val) :
    (iblk2 V c 0 t : Vec Ideal S8000x5 .f32) y = (V c (Pipeline.arrRef spec2 0) : S1000000x5.Idx → EReal) i := by
  have e0 := (idx_facts t).1
  have e1 := (idx_facts t).2.1
  unfold iblk2
  rw [View.read_apply]
  refine congrArg (V c (Pipeline.arrRef spec2 0)) ?_
  funext a
  apply Fin.ext
  match a with
  | ⟨0, _⟩ => show win2_0.index t (0 : Fin 2) * 8000 + 1 * (y 0).val = (i 0).val; rw [e0, h0]; omega
  | ⟨1, _⟩ => show win2_0.index t (1 : Fin 2) * 5 + 1 * (y 1).val = (i 1).val; rw [e1, h1]; omega

/-- Block `t` of the weight column is its rows from `8000 t`. -/
theorem blk_s (c : Dev nD) (t : Fin cfg2.N) (y : S8000x1.Idx) (i : S1000000x1.Idx)
    (h0 : (i 0).val = t.val * 8000 + (y 0).val) (h1 : (i 1).val = (y 1).val) :
    (iblk2 V c 1 t : Vec Ideal S8000x1 .f32) y = (V c (Pipeline.arrRef spec2 1) : S1000000x1.Idx → EReal) i := by
  have e0 := (idx_facts t).2.2.1
  have e1 := (idx_facts t).2.2.2.1
  unfold iblk2
  rw [View.read_apply]
  refine congrArg (V c (Pipeline.arrRef spec2 1)) ?_
  funext a
  apply Fin.ext
  match a with
  | ⟨0, _⟩ => show win2_1.index t (0 : Fin 2) * 8000 + 1 * (y 0).val = (i 0).val; rw [e0, h0]; omega
  | ⟨1, _⟩ => show win2_1.index t (1 : Fin 2) * 1 + 1 * (y 1).val = (i 1).val; rw [e1, h1]; omega

/-- The bias row's one block is the row. -/
theorem blk_b (c : Dev nD) (t : Fin cfg2.N) (y : S1x5.Idx) (i : S1x5.Idx)
    (h0 : (i 0).val = (y 0).val) (h1 : (i 1).val = (y 1).val) :
    (iblk2 V c 2 t : Vec Ideal S1x5 .f32) y = (V c (Pipeline.arrRef spec2 2) : S1x5.Idx → EReal) i := by
  have e0 := (idx_facts t).2.2.2.2.1
  have e1 := (idx_facts t).2.2.2.2.2.1
  unfold iblk2
  rw [View.read_apply]
  refine congrArg (V c (Pipeline.arrRef spec2 2)) ?_
  funext a
  apply Fin.ext
  match a with
  | ⟨0, _⟩ => show win2_2.index t (0 : Fin 2) * 1 + 1 * (y 0).val = (i 0).val; rw [e0, h0]; omega
  | ⟨1, _⟩ => show win2_2.index t (1 : Fin 2) * 5 + 1 * (y 1).val = (i 1).val; rw [e1, h1]; omega

/-- The 5×1 matrix's one block is the matrix. -/
theorem blk_W (c : Dev nD) (t : Fin cfg2.N) (y : S5x1.Idx) (i : S5x1.Idx)
    (h0 : (i 0).val = (y 0).val) (h1 : (i 1).val = (y 1).val) :
    (iblk2 V c 3 t : Vec Ideal S5x1 .f32) y = (V c (Pipeline.arrRef spec2 3) : S5x1.Idx → EReal) i := by
  have e0 := (idx_facts t).2.2.2.2.2.2.1
  have e1 := (idx_facts t).2.2.2.2.2.2.2.1
  unfold iblk2
  rw [View.read_apply]
  refine congrArg (V c (Pipeline.arrRef spec2 3)) ?_
  funext a
  apply Fin.ext
  match a with
  | ⟨0, _⟩ => show win2_3.index t (0 : Fin 2) * 5 + 1 * (y 0).val = (i 0).val; rw [e0, h0]; omega
  | ⟨1, _⟩ => show win2_3.index t (1 : Fin 2) * 1 + 1 * (y 1).val = (i 1).val; rw [e1, h1]; omega

/-- The 1×1 bias's one block is the bias. -/
theorem blk_l (c : Dev nD) (t : Fin cfg2.N) (y : S1x1.Idx) (i : S1x1.Idx)
    (h0 : (i 0).val = (y 0).val) (h1 : (i 1).val = (y 1).val) :
    (iblk2 V c 4 t : Vec Ideal S1x1 .f32) y = (V c (Pipeline.arrRef spec2 4) : S1x1.Idx → EReal) i := by
  have e0 := (idx_facts t).2.2.2.2.2.2.2.2.1
  have e1 := (idx_facts t).2.2.2.2.2.2.2.2.2.1
  unfold iblk2
  rw [View.read_apply]
  refine congrArg (V c (Pipeline.arrRef spec2 4)) ?_
  funext a
  apply Fin.ext
  match a with
  | ⟨0, _⟩ => show win2_4.index t (0 : Fin 2) * 1 + 1 * (y 0).val = (i 0).val; rw [e0, h0]; omega
  | ⟨1, _⟩ => show win2_4.index t (1 : Fin 2) * 1 + 1 * (y 1).val = (i 1).val; rw [e1, h1]; omega

/-- The body's stored entry, over the blocks of point `t`, is the result array's entry at the block's place. -/
theorem pay_at (c : Dev nD) (t : Fin cfg2.N) (j : S8000x1.Idx) (i : S1000000x1.Idx)
    (h0 : (i 0).val = t.val * 8000 + (j 0).val) (h1 : (i 1).val = (j 1).val) :
    k2_pay1 (F := Ideal) (iblk2 V c 0 t) (iblk2 V c 1 t) (iblk2 V c 2 t) (iblk2 V c 3 t) (iblk2 V c 4 t) j
      = out (V c (Pipeline.arrRef spec2 0)) (V c (Pipeline.arrRef spec2 1)) (V c (Pipeline.arrRef spec2 2)) (V c (Pipeline.arrRef spec2 3)) (V c (Pipeline.arrRef spec2 4)) i := by
  refine ((congrArg (k2_pay1 (F := Ideal) (iblk2 V c 0 t) (iblk2 V c 1 t) (iblk2 V c 2 t) (iblk2 V c 3 t) (iblk2 V c 4 t)) (eq_ix2 j)).trans
    (pay2_apply (iblk2 V c 0 t) (iblk2 V c 1 t) (iblk2 V c 2 t) (iblk2 V c 3 t) (iblk2 V c 4 t) (j 0) (j 1))).trans ?_
  exact Cert.KernelIdeal.Body.act_sum_add_congr
    (fun k => (iblk2 V c 0 t : Vec Ideal S8000x5 .f32) (ix2 (j 0) k))
    (fun k => (V c (Pipeline.arrRef spec2 0) : S1000000x5.Idx → EReal) (ix2 (i 0) k))
    (fun k => (iblk2 V c 2 t : Vec Ideal S1x5 .f32) (ix2 0 k))
    (fun k => (V c (Pipeline.arrRef spec2 2) : S1x5.Idx → EReal) (ix2 0 k))
    (fun k => (iblk2 V c 3 t : Vec Ideal S5x1 .f32) (ix2 k (j 1)))
    (fun k => (V c (Pipeline.arrRef spec2 3) : S5x1.Idx → EReal) (ix2 k (i 1)))
    ((iblk2 V c 1 t : Vec Ideal S8000x1 .f32) (ix2 (j 0) 0))
    ((V c (Pipeline.arrRef spec2 1) : S1000000x1.Idx → EReal) (ix2 (i 0) 0))
    ((iblk2 V c 4 t : Vec Ideal S1x1 .f32) (ix2 0 (j 1)))
    ((V c (Pipeline.arrRef spec2 4) : S1x1.Idx → EReal) (ix2 0 (i 1)))
    (fun k => blk_a V c t (ix2 (j 0) k) (ix2 (i 0) k) h0 rfl)
    (fun k => blk_b V c t (ix2 0 k) (ix2 0 k) rfl rfl)
    (fun k => blk_W V c t (ix2 k (j 1)) (ix2 k (i 1)) rfl h1)
    (blk_s V c t (ix2 (j 0) 0) (ix2 (i 0) 0) h0 rfl)
    (blk_l V c t (ix2 0 (j 1)) (ix2 0 (i 1)) rfl h1)

/-- WHAT POINT `t` WRITES BACK is block `t` of `out` of the arrays as the region finds them. -/
theorem flushed_eq (c : Dev nD) (t : Fin cfg2.N) :
    (dat2 V c).flushed 5 t = ((cfg2.win 5).blk t).view.read (Elt Ideal)
      (out (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S8000x5) hz, View.ld_unit_zero (S := S5x1) hz, View.ld_unit_zero (S := S8000x1) hz,
    View.ld_unit_zero (S := S1x5) hz, View.ld_unit_zero (S := S1x1) hz]
  have e0 := (idx_facts t).2.2.2.2.2.2.2.2.2.2.1
  have e1 := (idx_facts t).2.2.2.2.2.2.2.2.2.2.2.1
  funext j
  refine pay_at V c t j _ ?_ ?_
  · show win2_5.index t (0 : Fin 2) * 8000 + 1 * (j 0).val = _; rw [e0]; omega
  · show win2_5.index t (1 : Fin 2) * 1 + 1 * (j 1).val = _; rw [e1]; omega

/-- An index of the array is in point `t`'s block iff each coordinate is in the block's range on its axis. -/
theorem mem_blk (t : Fin cfg2.N) (i : S1000000x1.Idx) :
    i ∈ ((cfg2.win 5).blk t).view.set ↔ ∀ a : Fin 2, win2_5.index t a * S8000x1.size a ≤ (i a).val ∧ (i a).val < win2_5.index t a * S8000x1.size a + S8000x1.size a := by
  show i ∈ ((View.whole main_v41).slice (win2_5.rect t)).set ↔ _
  rw [View.set_slice_whole, Rect.mem_set_unit]
  exact Iff.rfl

/-- Row `n` is in the block of point `n / 8000`. -/
theorem cover (i : S1000000x1.Idx) : ∃ t : Fin cfg2.N, (cfg2.win 5).flush t = true ∧ i ∈ ((cfg2.win 5).blk t).view.set := by
  have hi0 : (i 0).val < 1000000 := (i 0).isLt
  have hi1 : (i 1).val < 1 := (i 1).isLt
  have hN : cfg2.N = 125 := N_2
  let t : Fin cfg2.N := ⟨(i 0).val / 8000, by rw [hN]; omega⟩
  have e0 := (idx_facts t).2.2.2.2.2.2.2.2.2.2.1
  have e1 := (idx_facts t).2.2.2.2.2.2.2.2.2.2.2.1
  have ht : t.val = (i 0).val / 8000 := rfl
  refine ⟨t, flush2_5 t, ?_⟩
  rw [mem_blk]
  intro a
  match a with
  | ⟨0, _⟩ => show win2_5.index t (0 : Fin 2) * 8000 ≤ (i 0).val ∧ (i 0).val < win2_5.index t (0 : Fin 2) * 8000 + 8000; rw [e0, ht]; omega
  | ⟨1, _⟩ => show win2_5.index t (1 : Fin 2) * 1 ≤ (i 1).val ∧ (i 1).val < win2_5.index t (1 : Fin 2) * 1 + 1; rw [e1]; omega

/-- THE ARRAY after the region: `out` of the arrays it was entered with. -/
theorem final (c : Dev nD) :
    (dat2 V c).arrAt 5 cfg2.N = out (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed_eq V c t) cover

end Cert.KernelIdeal.Region2

end
-- ==== Proof.KernelValue.lean ====
/-
  THE KERNEL PROGRAM'S RESULT AS ONE TERM OF ITS ARGUMENTS.

  Read back through the eight segments: the edge list with the self loops appended gives the source and target vectors;
  the degree is the count of edges per target and the node weight `dis = where(deg > 0, rsqrt deg, 0)`, reshaped to a
  column; region 0 writes `(x W1) · dis`; the host gathers its rows by source and adds them up by target; region 1
  writes `(relu(agg · dis + b1) W2) · dis`; the host aggregates again; region 2 writes `relu(agg · dis + b2) Wl + bl`.
-/
import proofs.«159880_j21114059227766_2_alg».proof.Proof.Gen.KernelIdeal.Frame
import proofs.«159880_j21114059227766_2_alg».proof.Proof.Region0
import proofs.«159880_j21114059227766_2_alg».proof.Proof.Region1
import proofs.«159880_j21114059227766_2_alg».proof.Proof.Region2
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The host operations as functions -/

/-- The edges' sources: row 0 of the edge list, then every node once (the self loops). -/
def srcOf (ei : IVec S2x32000000 32) : IVec S33000000 32 :=
  concatenate S33000000 0 [⟨S32000000, shapeCast S32000000 (extractStridedSlice S1x32000000 ![0, 0] ei slices_S2x32000000_S1x32000000_0_0) shapeCasts_S1x32000000_S32000000⟩, ⟨S1000000, iotaInDim S1000000 32 0⟩] concatenates_S32000000_S1000000_S33000000_d0

/-- The edges' targets: row 1 of the edge list, then every node once. -/
def dstOf (ei : IVec S2x32000000 32) : IVec S33000000 32 :=
  concatenate S33000000 0 [⟨S32000000, shapeCast S32000000 (extractStridedSlice S1x32000000 ![1, 0] ei slices_S2x32000000_S1x32000000_1_0) shapeCasts_S1x32000000_S32000000⟩, ⟨S1000000, iotaInDim S1000000 32 0⟩] concatenates_S32000000_S1000000_S33000000_d0

/-- An index vector as a column. -/
def col (v : IVec S33000000 32) : IVec S33000000x1 32 :=
  broadcastInDim S33000000x1 ![0] bcast_S33000000_S33000000x1_0 v

/-- An index vector as a column, a negative index first moved up by the number of nodes. -/
def wrapCol (v : IVec S33000000 32) : IVec S33000000x1 32 :=
  broadcastInDim S33000000x1 ![0] bcast_S33000000_S33000000x1_0
    (select (cmpi .slt v (broadcastInDim S33000000 ![] bcast_S_S33000000 (constantI S_ 32 0#32)))
      (addi v (broadcastInDim S33000000 ![] bcast_S_S33000000 (constantI S_ 32 1000000#32))) v)

/-- The degree: one per edge, added up by target. -/
def degOf (ei : IVec S2x32000000 32) : FVec Ideal S1000000 .f32 :=
  Host.scatterAdd scatter_S1000000_S33000000x1_S33000000_n_0_0_1
    (broadcastInDim S1000000 ![] bcast_S_S1000000 (constant S_ .f32 0x00000000#32))
    (col (dstOf ei))
    (broadcastInDim S33000000 ![] bcast_S_S33000000 (constant S_ .f32 0x3F800000#32))

/-- The node weight: the reciprocal square root of a positive degree, zero elsewhere. -/
def disOf (ei : IVec S2x32000000 32) : FVec Ideal S1000000 .f32 :=
  select (cmpf .ogt (degOf ei) (broadcastInDim S1000000 ![] bcast_S_S1000000 (constant S_ .f32 0x00000000#32)))
    (Host.rsqrt (degOf ei))
    (broadcastInDim S1000000 ![] bcast_S_S1000000 (id (constant (F := Ideal) S_ .f32 0x00000000#32)))

/-- The node weights as a column. -/
def weightCol (dis : FVec Ideal S1000000 .f32) : FVec Ideal S1000000x1 .f32 :=
  shapeCast S1000000x1 dis shapeCasts_S1000000_S1000000x1

/-- A bias vector as a row. -/
def biasRow (b : FVec Ideal S5 .f32) : FVec Ideal S1x5 .f32 := shapeCast S1x5 b shapeCasts_S5_S1x5

/-- The last bias as a 1×1 matrix. -/
def biasCell (b : FVec Ideal S1 .f32) : FVec Ideal S1x1 .f32 := shapeCast S1x1 b shapeCasts_S1_S1x1

/-- The rows of a table gathered by source and added up by target. -/
def aggregate (T : FVec Ideal S1000000x5 .f32) (src dst : IVec S33000000 32) : FVec Ideal S1000000x5 .f32 :=
  Host.scatterAdd scatter_S1000000x5_S33000000x1_S33000000x5_1_0_0_1
    (broadcastInDim S1000000x5 ![] bcast_S_S1000000x5 (constant S_ .f32 0x00000000#32))
    (col dst)
    (Host.gather gather_S1000000x5_S33000000x1_S33000000x5_1_0_n_n_0_1_15 T (wrapCol src))

/-- The whole program's result as a term of its arguments. -/
def result (x : FVec Ideal S1000000x5 .f32) (ei : IVec S2x32000000 32) (W1 : FVec Ideal S5x5 .f32) (b1 : FVec Ideal S5 .f32)
    (W2 : FVec Ideal S5x5 .f32) (b2 : FVec Ideal S5 .f32) (Wl : FVec Ideal S5x1 .f32) (bl : FVec Ideal S1 .f32) :
    FVec Ideal S1000000x1 .f32 :=
  Region2.out
    (aggregate
      (Region1.out (aggregate (Region0.out x W1 (weightCol (disOf ei))) (srcOf ei) (dstOf ei)) (weightCol (disOf ei)) (biasRow b1) W2)
      (srcOf ei) (dstOf ei))
    (weightCol (disOf ei)) (biasRow b2) Wl (biasCell bl)

/-! ## The stretches of host operations, from any contents `V` -/

section Stretches
variable (V : Valuation τ sig (Elt Ideal))

set_option maxHeartbeats 1000000 in
theorem s0_v3 : StableHlo.after hostOps0 V (Proc.devRef .tc main_v3) = srcOf (V (Proc.devRef .tc main_arg1)) := by
  after_results; rfl
set_option maxHeartbeats 1000000 in
theorem s0_v6 : StableHlo.after hostOps0 V (Proc.devRef .tc main_v6) = dstOf (V (Proc.devRef .tc main_arg1)) := by
  after_results; rfl
set_option maxHeartbeats 1000000 in
theorem s0_v12 : StableHlo.after hostOps0 V (Proc.devRef .tc main_v12)
    = cmpf .ogt (degOf (V (Proc.devRef .tc main_arg1))) (broadcastInDim S1000000 ![] bcast_S_S1000000 (constant (F := Ideal) S_ .f32 0x00000000#32)) := by
  after_results; rfl
set_option maxHeartbeats 1000000 in
theorem s0_v13 : StableHlo.after hostOps0 V (Proc.devRef .tc main_v13) = Host.rsqrt (degOf (V (Proc.devRef .tc main_arg1))) := by
  after_results; rfl
theorem s0_cst2 : StableHlo.after hostOps0 V (Proc.devRef .tc main_cst_2) = constant (F := Ideal) S_ .f32 0x00000000#32 := by
  after_results
theorem s0_arg0 : StableHlo.after hostOps0 V (Proc.devRef .tc main_arg0) = V (Proc.devRef .tc main_arg0) := by after_results
theorem s0_arg2 : StableHlo.after hostOps0 V (Proc.devRef .tc main_arg2) = V (Proc.devRef .tc main_arg2) := by after_results
theorem s0_arg3 : StableHlo.after hostOps0 V (Proc.devRef .tc main_arg3) = V (Proc.devRef .tc main_arg3) := by after_results
theorem s0_arg4 : StableHlo.after hostOps0 V (Proc.devRef .tc main_arg4) = V (Proc.devRef .tc main_arg4) := by after_results
theorem s0_arg5 : StableHlo.after hostOps0 V (Proc.devRef .tc main_arg5) = V (Proc.devRef .tc main_arg5) := by after_results
theorem s0_arg6 : StableHlo.after hostOps0 V (Proc.devRef .tc main_arg6) = V (Proc.devRef .tc main_arg6) := by after_results
theorem s0_arg7 : StableHlo.after hostOps0 V (Proc.devRef .tc main_arg7) = V (Proc.devRef .tc main_arg7) := by after_results

theorem s01_v14 : StableHlo.after hostOps0_1 V (Proc.devRef .tc main_v14)
    = select (V (Proc.devRef .tc main_v12)) (V (Proc.devRef .tc main_v13))
        (broadcastInDim S1000000 ![] bcast_S_S1000000 (id (V (Proc.devRef .tc main_cst_2)))) := by
  after_results; rfl
theorem s01_v3 : StableHlo.after hostOps0_1 V (Proc.devRef .tc main_v3) = V (Proc.devRef .tc main_v3) := by after_results
theorem s01_v6 : StableHlo.after hostOps0_1 V (Proc.devRef .tc main_v6) = V (Proc.devRef .tc main_v6) := by after_results
theorem s01_arg0 : StableHlo.after hostOps0_1 V (Proc.devRef .tc main_arg0) = V (Proc.devRef .tc main_arg0) := by after_results
theorem s01_arg2 : StableHlo.after hostOps0_1 V (Proc.devRef .tc main_arg2) = V (Proc.devRef .tc main_arg2) := by after_results
theorem s01_arg3 : StableHlo.after hostOps0_1 V (Proc.devRef .tc main_arg3) = V (Proc.devRef .tc main_arg3) := by after_results
theorem s01_arg4 : StableHlo.after hostOps0_1 V (Proc.devRef .tc main_arg4) = V (Proc.devRef .tc main_arg4) := by after_results
theorem s01_arg5 : StableHlo.after hostOps0_1 V (Proc.devRef .tc main_arg5) = V (Proc.devRef .tc main_arg5) := by after_results
theorem s01_arg6 : StableHlo.after hostOps0_1 V (Proc.devRef .tc main_arg6) = V (Proc.devRef .tc main_arg6) := by after_results
theorem s01_arg7 : StableHlo.after hostOps0_1 V (Proc.devRef .tc main_arg7) = V (Proc.devRef .tc main_arg7) := by after_results

theorem s02_v15 : StableHlo.after hostOps0_2 V (Proc.devRef .tc main_v15) = weightCol (V (Proc.devRef .tc main_v14)) := by
  after_results; rfl
theorem s02_v3 : StableHlo.after hostOps0_2 V (Proc.devRef .tc main_v3) = V (Proc.devRef .tc main_v3) := by after_results
theorem s02_v6 : StableHlo.after hostOps0_2 V (Proc.devRef .tc main_v6) = V (Proc.devRef .tc main_v6) := by after_results
theorem s02_arg0 : StableHlo.after hostOps0_2 V (Proc.devRef .tc main_arg0) = V (Proc.devRef .tc main_arg0) := by after_results
theorem s02_arg2 : StableHlo.after hostOps0_2 V (Proc.devRef .tc main_arg2) = V (Proc.devRef .tc main_arg2) := by after_results
theorem s02_arg3 : StableHlo.after hostOps0_2 V (Proc.devRef .tc main_arg3) = V (Proc.devRef .tc main_arg3) := by after_results
theorem s02_arg4 : StableHlo.after hostOps0_2 V (Proc.devRef .tc main_arg4) = V (Proc.devRef .tc main_arg4) := by after_results
theorem s02_arg5 : StableHlo.after hostOps0_2 V (Proc.devRef .tc main_arg5) = V (Proc.devRef .tc main_arg5) := by after_results
theorem s02_arg6 : StableHlo.after hostOps0_2 V (Proc.devRef .tc main_arg6) = V (Proc.devRef .tc main_arg6) := by after_results
theorem s02_arg7 : StableHlo.after hostOps0_2 V (Proc.devRef .tc main_arg7) = V (Proc.devRef .tc main_arg7) := by after_results

theorem s1_v26 : StableHlo.after hostOps1 V (Proc.devRef .tc main_v26)
    = aggregate (V (Proc.devRef .tc main_v16)) (V (Proc.devRef .tc main_v3)) (V (Proc.devRef .tc main_v6)) := by
  after_results; rfl
theorem s1_v27 : StableHlo.after hostOps1 V (Proc.devRef .tc main_v27) = biasRow (V (Proc.devRef .tc main_arg3)) := by
  after_results; rfl
theorem s1_v3 : StableHlo.after hostOps1 V (Proc.devRef .tc main_v3) = V (Proc.devRef .tc main_v3) := by after_results
theorem s1_v6 : StableHlo.after hostOps1 V (Proc.devRef .tc main_v6) = V (Proc.devRef .tc main_v6) := by after_results
theorem s1_v15 : StableHlo.after hostOps1 V (Proc.devRef .tc main_v15) = V (Proc.devRef .tc main_v15) := by after_results
theorem s1_arg4 : StableHlo.after hostOps1 V (Proc.devRef .tc main_arg4) = V (Proc.devRef .tc main_arg4) := by after_results
theorem s1_arg5 : StableHlo.after hostOps1 V (Proc.devRef .tc main_arg5) = V (Proc.devRef .tc main_arg5) := by after_results
theorem s1_arg6 : StableHlo.after hostOps1 V (Proc.devRef .tc main_arg6) = V (Proc.devRef .tc main_arg6) := by after_results
theorem s1_arg7 : StableHlo.after hostOps1 V (Proc.devRef .tc main_arg7) = V (Proc.devRef .tc main_arg7) := by after_results

theorem s2_v38 : StableHlo.after hostOps2 V (Proc.devRef .tc main_v38)
    = aggregate (V (Proc.devRef .tc main_v28)) (V (Proc.devRef .tc main_v3)) (V (Proc.devRef .tc main_v6)) := by
  after_results; rfl
theorem s2_v39 : StableHlo.after hostOps2 V (Proc.devRef .tc main_v39) = biasRow (V (Proc.devRef .tc main_arg5)) := by
  after_results; rfl
theorem s2_v40 : StableHlo.after hostOps2 V (Proc.devRef .tc main_v40) = biasCell (V (Proc.devRef .tc main_arg7)) := by
  after_results; rfl
theorem s2_v15 : StableHlo.after hostOps2 V (Proc.devRef .tc main_v15) = V (Proc.devRef .tc main_v15) := by after_results
theorem s2_arg6 : StableHlo.after hostOps2 V (Proc.devRef .tc main_arg6) = V (Proc.devRef .tc main_arg6) := by after_results

end Stretches

/-! ## The fold, boundary by boundary -/

section Fold
variable (m : (ℓ : Loc nD τ sig) → Buf (Elt Ideal) ℓ) (ρ : Dev nD → PrngReg) (c : Dev nD)

/-- An argument's launch contents on core `c`. -/
abbrev arg (b : Ref sig .tc) : Buf (Elt Ideal) ((c : Thread nD τ).loc b) := m ((c : Thread nD τ).loc b)

/-- The node weights of the launch's edge list, as a column. -/
abbrev weights : FVec Ideal S1000000x1 .f32 := weightCol (disOf (arg m c main_arg1))

/-! ### At region 0's entry -/

theorem W3_v3 : W3 m ρ c (Proc.devRef .tc main_v3) = srcOf (arg m c main_arg1) := by
  show StableHlo.after hostOps0_2 (W2 m ρ c) _ = _
  rw [s02_v3]
  show StableHlo.after hostOps0_1 (W1 m ρ c) _ = _
  rw [s01_v3]
  show StableHlo.after hostOps0 (W0 m ρ c) _ = _
  rw [s0_v3]
theorem W3_v6 : W3 m ρ c (Proc.devRef .tc main_v6) = dstOf (arg m c main_arg1) := by
  show StableHlo.after hostOps0_2 (W2 m ρ c) _ = _
  rw [s02_v6]
  show StableHlo.after hostOps0_1 (W1 m ρ c) _ = _
  rw [s01_v6]
  show StableHlo.after hostOps0 (W0 m ρ c) _ = _
  rw [s0_v6]
theorem W3_v15 : W3 m ρ c (Proc.devRef .tc main_v15) = weights m c := by
  show StableHlo.after hostOps0_2 (W2 m ρ c) _ = _
  rw [s02_v15]
  show weightCol (StableHlo.after hostOps0_1 (W1 m ρ c) (Proc.devRef .tc main_v14)) = _
  rw [s01_v14]
  show weightCol (select (StableHlo.after hostOps0 (W0 m ρ c) (Proc.devRef .tc main_v12))
    (StableHlo.after hostOps0 (W0 m ρ c) (Proc.devRef .tc main_v13))
    (broadcastInDim S1000000 ![] bcast_S_S1000000 (id (StableHlo.after hostOps0 (W0 m ρ c) (Proc.devRef .tc main_cst_2))))) = _
  rw [s0_v12, s0_v13, s0_cst2]
  rfl
theorem W3_arg0 : W3 m ρ c (Proc.devRef .tc main_arg0) = arg m c main_arg0 := by
  show StableHlo.after hostOps0_2 (W2 m ρ c) _ = _
  rw [s02_arg0]
  show StableHlo.after hostOps0_1 (W1 m ρ c) _ = _
  rw [s01_arg0]
  show StableHlo.after hostOps0 (W0 m ρ c) _ = _
  rw [s0_arg0]
theorem W3_arg2 : W3 m ρ c (Proc.devRef .tc main_arg2) = arg m c main_arg2 := by
  show StableHlo.after hostOps0_2 (W2 m ρ c) _ = _
  rw [s02_arg2]
  show StableHlo.after hostOps0_1 (W1 m ρ c) _ = _
  rw [s01_arg2]
  show StableHlo.after hostOps0 (W0 m ρ c) _ = _
  rw [s0_arg2]
theorem W3_arg3 : W3 m ρ c (Proc.devRef .tc main_arg3) = arg m c main_arg3 := by
  show StableHlo.after hostOps0_2 (W2 m ρ c) _ = _
  rw [s02_arg3]
  show StableHlo.after hostOps0_1 (W1 m ρ c) _ = _
  rw [s01_arg3]
  show StableHlo.after hostOps0 (W0 m ρ c) _ = _
  rw [s0_arg3]
theorem W3_arg4 : W3 m ρ c (Proc.devRef .tc main_arg4) = arg m c main_arg4 := by
  show StableHlo.after hostOps0_2 (W2 m ρ c) _ = _
  rw [s02_arg4]
  show StableHlo.after hostOps0_1 (W1 m ρ c) _ = _
  rw [s01_arg4]
  show StableHlo.after hostOps0 (W0 m ρ c) _ = _
  rw [s0_arg4]
theorem W3_arg5 : W3 m ρ c (Proc.devRef .tc main_arg5) = arg m c main_arg5 := by
  show StableHlo.after hostOps0_2 (W2 m ρ c) _ = _
  rw [s02_arg5]
  show StableHlo.after hostOps0_1 (W1 m ρ c) _ = _
  rw [s01_arg5]
  show StableHlo.after hostOps0 (W0 m ρ c) _ = _
  rw [s0_arg5]
theorem W3_arg6 : W3 m ρ c (Proc.devRef .tc main_arg6) = arg m c main_arg6 := by
  show StableHlo.after hostOps0_2 (W2 m ρ c) _ = _
  rw [s02_arg6]
  show StableHlo.after hostOps0_1 (W1 m ρ c) _ = _
  rw [s01_arg6]
  show StableHlo.after hostOps0 (W0 m ρ c) _ = _
  rw [s0_arg6]
theorem W3_arg7 : W3 m ρ c (Proc.devRef .tc main_arg7) = arg m c main_arg7 := by
  show StableHlo.after hostOps0_2 (W2 m ρ c) _ = _
  rw [s02_arg7]
  show StableHlo.after hostOps0_1 (W1 m ρ c) _ = _
  rw [s01_arg7]
  show StableHlo.after hostOps0 (W0 m ρ c) _ = _
  rw [s0_arg7]

/-! ### At region 0's exit -/

theorem W4_v16 : W4 m ρ c (Proc.devRef .tc main_v16) = Region0.out (arg m c main_arg0) (arg m c main_arg2) (weights m c) := by
  refine (W4_arr m ρ c 3).trans ?_
  rw [Region0.final (V3 m ρ) c]
  show Region0.out (W3 m ρ c (Proc.devRef .tc main_arg0)) (W3 m ρ c (Proc.devRef .tc main_arg2)) (W3 m ρ c (Proc.devRef .tc main_v15)) = _
  rw [W3_arg0, W3_arg2, W3_v15]
theorem W4_v15 : W4 m ρ c (Proc.devRef .tc main_v15) = weights m c :=
  ((W4_arr m ρ c 2).trans (((dat0 (V3 m ρ) c).arrAt_in 2 rfl _).trans (A_eq0 (V3 m ρ) c 2))).trans (W3_v15 m ρ c)
theorem W4_v3 : W4 m ρ c (Proc.devRef .tc main_v3) = srcOf (arg m c main_arg1) := (W4_of_ne m ρ c main_v3 (by decide)).trans (W3_v3 m ρ c)
theorem W4_v6 : W4 m ρ c (Proc.devRef .tc main_v6) = dstOf (arg m c main_arg1) := (W4_of_ne m ρ c main_v6 (by decide)).trans (W3_v6 m ρ c)
theorem W4_arg3 : W4 m ρ c (Proc.devRef .tc main_arg3) = arg m c main_arg3 := (W4_of_ne m ρ c main_arg3 (by decide)).trans (W3_arg3 m ρ c)
theorem W4_arg4 : W4 m ρ c (Proc.devRef .tc main_arg4) = arg m c main_arg4 := (W4_of_ne m ρ c main_arg4 (by decide)).trans (W3_arg4 m ρ c)
theorem W4_arg5 : W4 m ρ c (Proc.devRef .tc main_arg5) = arg m c main_arg5 := (W4_of_ne m ρ c main_arg5 (by decide)).trans (W3_arg5 m ρ c)
theorem W4_arg6 : W4 m ρ c (Proc.devRef .tc main_arg6) = arg m c main_arg6 := (W4_of_ne m ρ c main_arg6 (by decide)).trans (W3_arg6 m ρ c)
theorem W4_arg7 : W4 m ρ c (Proc.devRef .tc main_arg7) = arg m c main_arg7 := (W4_of_ne m ρ c main_arg7 (by decide)).trans (W3_arg7 m ρ c)

/-- The first aggregate: the scaled first product's rows gathered by source and added up by target. -/
abbrev agg1 : FVec Ideal S1000000x5 .f32 :=
  aggregate (Region0.out (arg m c main_arg0) (arg m c main_arg2) (weights m c)) (srcOf (arg m c main_arg1)) (dstOf (arg m c main_arg1))

/-! ### At region 1's entry -/

theorem W5_v26 : W5 m ρ c (Proc.devRef .tc main_v26) = agg1 m c := by
  show StableHlo.after hostOps1 (W4 m ρ c) _ = _
  rw [s1_v26, W4_v16, W4_v3, W4_v6]
theorem W5_v27 : W5 m ρ c (Proc.devRef .tc main_v27) = biasRow (arg m c main_arg3) := by
  show StableHlo.after hostOps1 (W4 m ρ c) _ = _
  rw [s1_v27, W4_arg3]
theorem W5_v15 : W5 m ρ c (Proc.devRef .tc main_v15) = weights m c := by
  show StableHlo.after hostOps1 (W4 m ρ c) _ = _
  rw [s1_v15, W4_v15]
theorem W5_v3 : W5 m ρ c (Proc.devRef .tc main_v3) = srcOf (arg m c main_arg1) := by
  show StableHlo.after hostOps1 (W4 m ρ c) _ = _
  rw [s1_v3, W4_v3]
theorem W5_v6 : W5 m ρ c (Proc.devRef .tc main_v6) = dstOf (arg m c main_arg1) := by
  show StableHlo.after hostOps1 (W4 m ρ c) _ = _
  rw [s1_v6, W4_v6]
theorem W5_arg4 : W5 m ρ c (Proc.devRef .tc main_arg4) = arg m c main_arg4 := by
  show StableHlo.after hostOps1 (W4 m ρ c) _ = _
  rw [s1_arg4, W4_arg4]
theorem W5_arg5 : W5 m ρ c (Proc.devRef .tc main_arg5) = arg m c main_arg5 := by
  show StableHlo.after hostOps1 (W4 m ρ c) _ = _
  rw [s1_arg5, W4_arg5]
theorem W5_arg6 : W5 m ρ c (Proc.devRef .tc main_arg6) = arg m c main_arg6 := by
  show StableHlo.after hostOps1 (W4 m ρ c) _ = _
  rw [s1_arg6, W4_arg6]
theorem W5_arg7 : W5 m ρ c (Proc.devRef .tc main_arg7) = arg m c main_arg7 := by
  show StableHlo.after hostOps1 (W4 m ρ c) _ = _
  rw [s1_arg7, W4_arg7]

/-- The second scaled table. -/
abbrev table2 : FVec Ideal S1000000x5 .f32 :=
  Region1.out (agg1 m c) (weights m c) (biasRow (arg m c main_arg3)) (arg m c main_arg4)

/-! ### At region 1's exit -/

theorem W6_v28 : W6 m ρ c (Proc.devRef .tc main_v28) = table2 m c := by
  refine (W6_arr m ρ c 4).trans ?_
  rw [Region1.final (V5 m ρ) c]
  show Region1.out (W5 m ρ c (Proc.devRef .tc main_v26)) (W5 m ρ c (Proc.devRef .tc main_v15)) (W5 m ρ c (Proc.devRef .tc main_v27)) (W5 m ρ c (Proc.devRef .tc main_arg4)) = _
  rw [W5_v26, W5_v15, W5_v27, W5_arg4]
theorem W6_v15 : W6 m ρ c (Proc.devRef .tc main_v15) = weights m c :=
  ((W6_arr m ρ c 1).trans (((dat1 (V5 m ρ) c).arrAt_in 1 rfl _).trans (A_eq1 (V5 m ρ) c 1))).trans (W5_v15 m ρ c)
theorem W6_v3 : W6 m ρ c (Proc.devRef .tc main_v3) = srcOf (arg m c main_arg1) := (W6_of_ne m ρ c main_v3 (by decide)).trans (W5_v3 m ρ c)
theorem W6_v6 : W6 m ρ c (Proc.devRef .tc main_v6) = dstOf (arg m c main_arg1) := (W6_of_ne m ρ c main_v6 (by decide)).trans (W5_v6 m ρ c)
theorem W6_arg5 : W6 m ρ c (Proc.devRef .tc main_arg5) = arg m c main_arg5 := (W6_of_ne m ρ c main_arg5 (by decide)).trans (W5_arg5 m ρ c)
theorem W6_arg6 : W6 m ρ c (Proc.devRef .tc main_arg6) = arg m c main_arg6 := (W6_of_ne m ρ c main_arg6 (by decide)).trans (W5_arg6 m ρ c)
theorem W6_arg7 : W6 m ρ c (Proc.devRef .tc main_arg7) = arg m c main_arg7 := (W6_of_ne m ρ c main_arg7 (by decide)).trans (W5_arg7 m ρ c)

/-! ### At region 2's entry -/

theorem W7_v38 : W7 m ρ c (Proc.devRef .tc main_v38) = aggregate (table2 m c) (srcOf (arg m c main_arg1)) (dstOf (arg m c main_arg1)) := by
  show StableHlo.after hostOps2 (W6 m ρ c) _ = _
  rw [s2_v38, W6_v28, W6_v3, W6_v6]
theorem W7_v39 : W7 m ρ c (Proc.devRef .tc main_v39) = biasRow (arg m c main_arg5) := by
  show StableHlo.after hostOps2 (W6 m ρ c) _ = _
  rw [s2_v39, W6_arg5]
theorem W7_v40 : W7 m ρ c (Proc.devRef .tc main_v40) = biasCell (arg m c main_arg7) := by
  show StableHlo.after hostOps2 (W6 m ρ c) _ = _
  rw [s2_v40, W6_arg7]
theorem W7_v15 : W7 m ρ c (Proc.devRef .tc main_v15) = weights m c := by
  show StableHlo.after hostOps2 (W6 m ρ c) _ = _
  rw [s2_v15, W6_v15]
theorem W7_arg6 : W7 m ρ c (Proc.devRef .tc main_arg6) = arg m c main_arg6 := by
  show StableHlo.after hostOps2 (W6 m ρ c) _ = _
  rw [s2_arg6, W6_arg6]

/-! ### The result -/

/-- THE RESULT BUFFER after the run is `result` of the launch's arguments. -/
theorem W8_v41 : W8 m ρ c (Proc.devRef .tc main_v41)
    = result (arg m c main_arg0) (arg m c main_arg1) (arg m c main_arg2) (arg m c main_arg3) (arg m c main_arg4)
        (arg m c main_arg5) (arg m c main_arg6) (arg m c main_arg7) := by
  refine (W8_arr m ρ c 5).trans ?_
  rw [Region2.final (V7 m ρ) c]
  show Region2.out (W7 m ρ c (Proc.devRef .tc main_v38)) (W7 m ρ c (Proc.devRef .tc main_v15)) (W7 m ρ c (Proc.devRef .tc main_v39)) (W7 m ρ c (Proc.devRef .tc main_arg6)) (W7 m ρ c (Proc.devRef .tc main_v40)) = _
  rw [W7_v38, W7_v15, W7_v39, W7_arg6, W7_v40]
  rfl

end Fold

end Cert.KernelIdeal.Fold

end
-- ==== Proof.KernelBridge.lean ====
/-
  THE KERNEL PROGRAM'S RESULT IS THE NETWORK.

  Entry by entry, the result term reads as `Cert.Gcn.K`: the three regions' entries over the aggregates, each aggregate
  the segment sum of the gathered rows, the weight column reading the node's weight and the bias rows their entries.
  The two facts the algebra needs hold of the host's own columns and weights: an edge that lands on node `n` has a
  non-negative target index, which the wrap-around leaves alone and the clamp reads as `n` (`lands_target`); and the
  node weight `where(deg > 0, rsqrt deg, 0)` is a finite non-negative number (`weight_ok`). So the result is `Cert.Gcn.G`.
-/
import proofs.«159880_j21114059227766_2_alg».proof.Proof.KernelValue
import proofs.«159880_j21114059227766_2_alg».proof.Proof.GcnSpec
import proofs.«159880_j21114059227766_2_alg».proof.Proof.HostLayer
import proofs.«159880_j21114059227766_2_alg».proof.Proof.LibColumnForms
import proofs.«159880_j21114059227766_2_alg».proof.Proof.GraphLaw
import Idealize.ShloMosaic.Lib.Pipeline.Value

noncomputable section

open scoped BigOperators

namespace Cert.KernelIdeal.Bridge

open Cert.KernelIdeal Cert.KernelIdeal.Gen Cert.KernelIdeal.Fold
open Idealize.ShloMosaic Idealize.ShloMosaic.ValueIdx
open Cert.Gcn Cert.Lib.SegmentSum Cert.Lib.ColumnForms

/-- A column of indices reads the vector's entry. -/
theorem col_apply (v : IVec S33000000 32) (e : Fin EE) : col v (ix2 e 0) = v (ix1 e) :=
  broadcastInDim_apply _ bcast_S33000000_S33000000x1_0 v (ix2 e 0) (ix1 e) (fun a => by
    match a with
    | ⟨0, _⟩ => show e.val = if (33000000 : Nat) = 1 then 0 else e.val; rw [if_neg (by decide)])

/-- The wrapped column reads the entry, moved up by the number of nodes where it is negative. -/
theorem wrapCol_apply (v : IVec S33000000 32) (e : Fin EE) :
    wrapCol v (ix2 e 0)
      = Scalar.select (IntOp.cmpi .slt (v (ix1 e)) 0#32) (IntOp.addi (v (ix1 e)) 1000000#32) (v (ix1 e)) :=
  broadcastInDim_apply _ bcast_S33000000_S33000000x1_0 _ (ix2 e 0) (ix1 e) (fun a => by
    match a with
    | ⟨0, _⟩ => show e.val = if (33000000 : Nat) = 1 then 0 else e.val; rw [if_neg (by decide)])

/-- AN EDGE THAT LANDS ON `n` READS `n`'S WEIGHT AS ITS TARGET'S: its target index is `n ≥ 0`, which the wrap-around keeps
    and the clamp into `[0, N − 1]` reads as `n`. -/
theorem lands_target (dst : IVec S33000000 32) (e : Fin EE) (n : Fin NN)
    (h : (col dst (ix2 e 0)).toInt = (n.val : ℤ)) : srcRow hNN (wrapCol dst) e = n := by
  rw [col_apply] at h
  have hn : n.val < 1000000 := n.isLt
  have hlt : ¬ (dst (ix1 e)).toInt < (0#32 : BitVec 32).toInt := by
    rw [h]; simp
  have hsel : wrapCol dst (ix2 e 0) = dst (ix1 e) := by
    rw [wrapCol_apply]
    unfold IntOp.cmpi
    simp only [BitVec.slt, hlt, decide_false, BitVec.ofBool_false]
    exact select_zero _ _
  apply Fin.ext
  show min (wrapCol dst (ix2 e 0)).toInt.toNat (1000000 - 1) = n.val
  rw [hsel, h]
  omega

/-- THE NODE WEIGHT IS A FINITE NON-NEGATIVE NUMBER. -/
theorem weight_entry (d : FVec Ideal S1000000 .f32) (n : Fin NN) :
    select (cmpf .ogt d (broadcastInDim S1000000 ![] bcast_S_S1000000 (constant (F := Ideal) S_ .f32 0x00000000#32)))
        (Host.rsqrt d) (broadcastInDim S1000000 ![] bcast_S_S1000000 (id (constant (F := Ideal) S_ .f32 0x00000000#32))) (ix1 n)
      = Scalar.select (Ideal.cmp .ogt (d (ix1 n)) (Ideal.ofBits .f32 0x00000000#32)) (Ideal.rsqrt (d (ix1 n)))
          (Ideal.ofBits .f32 0x00000000#32) := by
  have hz : broadcastInDim S1000000 ![] bcast_S_S1000000 (constant (F := Ideal) S_ .f32 0x00000000#32) (ix1 n)
      = Ideal.ofBits .f32 0x00000000#32 :=
    broadcastInDim_apply _ bcast_S_S1000000 _ (ix1 n) ix0 (fun a => a.elim0)
  have hz' : broadcastInDim S1000000 ![] bcast_S_S1000000 (id (constant (F := Ideal) S_ .f32 0x00000000#32)) (ix1 n)
      = Ideal.ofBits .f32 0x00000000#32 :=
    broadcastInDim_apply _ bcast_S_S1000000 _ (ix1 n) ix0 (fun a => a.elim0)
  rw [select_apply, cmpf_apply, hz, hz']
  rfl

theorem weight_ok (ei : IVec S2x32000000 32) (n : Fin NN) : 0 ≤ disOf ei (ix1 n) ∧ disOf ei (ix1 n) ≠ ⊤ := by
  unfold disOf
  rw [weight_entry]
  exact weight_bounds (degOf ei (ix1 n)) (Ideal.ofBits .f32 0x00000000#32) (Ideal.ofBits .f32 0x00000000#32)
    Ideal.ofBits_zero_f32 Ideal.ofBits_zero_f32

section Entries
variable (x : FVec Ideal S1000000x5 .f32) (ei : IVec S2x32000000 32) (W1 : FVec Ideal S5x5 .f32) (b1 : FVec Ideal S5 .f32)
  (W2 : FVec Ideal S5x5 .f32) (b2 : FVec Ideal S5 .f32) (Wl : FVec Ideal S5x1 .f32) (bl : FVec Ideal S1 .f32)

/-- The weight column reads the node's weight. -/
theorem weights_apply (n : Fin NN) : weightCol (disOf ei) (ix2 n 0) = disOf ei (ix1 n) :=
  shapeCast_col_apply (disOf ei) shapeCasts_S1000000_S1000000x1 n

/-- A bias row reads the bias's entry. -/
theorem biasRow_apply (b : FVec Ideal S5 .f32) (k : Fin 5) : biasRow b (ix2 0 k) = b (ix1 k) :=
  shapeCast_row_apply b shapeCasts_S5_S1x5 k

/-- The 1×1 bias reads the bias. -/
theorem biasCell_apply (b : FVec Ideal S1 .f32) (q : Fin 1) : biasCell b (ix2 0 q) = b (ix1 q) :=
  shapeCast_row_apply b shapeCasts_S1_S1x1 q

/-- An aggregate at an entry: the segment sum of the gathered rows. -/
theorem aggregate_entry (T : FVec Ideal S1000000x5 .f32) (src dst : IVec S33000000 32) (n : Fin NN) (c : Fin 5) :
    aggregate T src dst (ix2 n c) = agg (wrapCol src) (col dst) (fun m c => T (ix2 m c)) n c :=
  aggregate_apply scatter_S1000000x5_S33000000x1_S33000000x5_1_0_0_1 gather_S1000000x5_S33000000x1_S33000000x5_1_0_n_n_0_1_15
    rfl rfl rfl rfl rfl rfl rfl rfl rfl rfl rfl _ (fun _ => Ideal.ofBits_zero_f32) T (col dst) (wrapCol src) n c

/-- THE RESULT TERM, ENTRY BY ENTRY, is the kernel's arrangement of the network. -/
theorem result_entry (n : Fin NN) (q : Fin 1) :
    result x ei W1 b1 W2 b2 Wl bl (ix2 n q)
      = K (wrapCol (srcOf ei)) (col (dstOf ei)) (fun n => disOf ei (ix1 n)) (fun n k => x (ix2 n k))
          (fun k c => W1 (ix2 k c)) (fun k => b1 (ix1 k)) (fun k c => W2 (ix2 k c)) (fun k => b2 (ix1 k))
          (fun k => Wl (ix2 k 0)) (bl (ix1 0)) n := by
  obtain rfl : q = 0 := Subsingleton.elim _ _
  unfold result K
  show Region2.entry _ _ _ _ _ n 0 = _
  unfold Region2.entry
  rw [weights_apply, biasCell_apply]
  refine congrArg (· + bl (ix1 0)) (Finset.sum_congr rfl fun k _ => ?_)
  refine congrArg (· * Wl (ix2 k 0)) ?_
  unfold Cert.Gcn.hidden
  rw [biasRow_apply, aggregate_entry]
  refine congrArg (fun z => max (z * disOf ei (ix1 n) + b2 (ix1 k)) 0) ?_
  refine congrArg (fun T => agg (wrapCol (srcOf ei)) (col (dstOf ei)) T n k) (funext fun m => funext fun c => ?_)
  show Region1.entry _ _ _ _ m c = _
  unfold Region1.entry
  rw [weights_apply]
  refine congrArg (· * disOf ei (ix1 m)) (Finset.sum_congr rfl fun j _ => ?_)
  refine congrArg (· * W2 (ix2 j c)) ?_
  rw [biasRow_apply, aggregate_entry]
  refine congrArg (fun z => max (z * disOf ei (ix1 m) + b1 (ix1 j)) 0) ?_
  refine congrArg (fun T => agg (wrapCol (srcOf ei)) (col (dstOf ei)) T m j) (funext fun m' => funext fun c' => ?_)
  show Region0.entry _ _ _ m' c' = _
  unfold Region0.entry
  rw [weights_apply]

/-- THE KERNEL PROGRAM'S RESULT at node `n` is the network's. -/
theorem value (n : Fin NN) (q : Fin 1) :
    result x ei W1 b1 W2 b2 Wl bl (ix2 n q)
      = G (wrapCol (srcOf ei)) (col (dstOf ei)) (wrapCol (dstOf ei)) (fun n => disOf ei (ix1 n)) (fun n k => x (ix2 n k))
          (fun k c => W1 (ix2 k c)) (fun k => b1 (ix1 k)) (fun k c => W2 (ix2 k c)) (fun k => b2 (ix1 k))
          (fun k => Wl (ix2 k 0)) (bl (ix1 0)) n :=
  (result_entry x ei W1 b1 W2 b2 Wl bl n q).trans
    (kernel_eq (wrapCol (srcOf ei)) (col (dstOf ei)) (wrapCol (dstOf ei)) (fun n => disOf ei (ix1 n))
      (fun e n h => lands_target (dstOf ei) e n h) (fun n => weight_ok ei n) _ _ _ _ _ _ _ n)

end Entries

end Cert.KernelIdeal.Bridge

end
-- ==== Proof.lean ====
/-
  Two graph-convolution layers and a linear head over a graph of 1000000 nodes and 32000000 edges plus the self loops:
  the kernel program (three Pallas kernels over 125 blocks of 8000 nodes, the gathers and segment sums on the host
  between them) against the plain jnp reference, equal at the ideal values.

  The reference weights every edge by `dis[src] · dis[dst]`, `dis = where(deg > 0, rsqrt deg, 0)`, before the segment sum.
  The kernel program scales the rows of the table by `dis` before the gather and the aggregated row by `dis` of the
  target after the segment sum. The two agree because an edge that lands on node `n` has target `n`, and because `dis[n]`
  is a finite non-negative number, which distributes over a sum of extended reals (the inputs' finiteness is not
  used). Both results are the one function `Cert.Gcn.G` of the arguments: `Cert.KernelIdeal.Bridge.value` for the kernel
  program's result term (read off the run's segments in `Cert.KernelIdeal.Fold.W8_v41`), `Cert.ReferenceIdeal.RefValue.value`
  for the reference's; the source column, the target columns and the node weights are the same terms in the two programs.
-/
import proofs.«159880_j21114059227766_2_alg».proof.Defs
import proofs.«159880_j21114059227766_2_alg».proof.Proof.Gen.Kernel
import proofs.«159880_j21114059227766_2_alg».proof.Proof.Gen.Kernel.Skeleton
import proofs.«159880_j21114059227766_2_alg».proof.Proof.Gen.Kernel.Launch
import proofs.«159880_j21114059227766_2_alg».proof.Proof.Gen.Kernel.Points
import proofs.«159880_j21114059227766_2_alg».proof.Proof.Gen.Kernel.Frame
import proofs.«159880_j21114059227766_2_alg».proof.Proof.Gen.KernelIdeal
import proofs.«159880_j21114059227766_2_alg».proof.Proof.Gen.KernelIdeal.Skeleton
import proofs.«159880_j21114059227766_2_alg».proof.Proof.Gen.KernelIdeal.Launch
import proofs.«159880_j21114059227766_2_alg».proof.Proof.Gen.KernelIdeal.Points
import proofs.«159880_j21114059227766_2_alg».proof.Proof.Gen.KernelIdeal.Frame
import proofs.«159880_j21114059227766_2_alg».proof.Proof.Gen.ReferenceIdeal
import proofs.«159880_j21114059227766_2_alg».proof.Proof.Gen.Pre_finite_inputs
import proofs.«159880_j21114059227766_2_alg».proof.Proof.RefRun
import proofs.«159880_j21114059227766_2_alg».proof.Proof.RefRead
import proofs.«159880_j21114059227766_2_alg».proof.Proof.RefValue
import proofs.«159880_j21114059227766_2_alg».proof.Proof.KernelRun
import proofs.«159880_j21114059227766_2_alg».proof.Proof.KernelValue
import proofs.«159880_j21114059227766_2_alg».proof.Proof.KernelBridge
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two programs' graph columns and node weights are the same terms -/

section Same
variable (x1 : IVec ⟨2, ![2, 32000000]⟩ 32)

theorem same_src : Cert.KernelIdeal.Fold.wrapCol (Cert.KernelIdeal.Fold.srcOf x1)
    = Cert.ReferenceIdeal.ReadP.val_main_v21 (F := Ideal) x1 := rfl
theorem same_dst : Cert.KernelIdeal.Fold.col (Cert.KernelIdeal.Fold.dstOf x1)
    = Cert.ReferenceIdeal.ReadP.val_main_v42 (F := Ideal) x1 := rfl
theorem same_wdst : Cert.KernelIdeal.Fold.wrapCol (Cert.KernelIdeal.Fold.dstOf x1)
    = Cert.ReferenceIdeal.ReadP.val_main_v28 (F := Ideal) x1 := rfl
theorem same_dis : Cert.KernelIdeal.Fold.disOf x1 = Cert.ReferenceIdeal.ReadP.val_main_v14 (F := Ideal) x1 := rfl

end Same

/-! ## The common result -/

/-- The network's output column, as a function of the arguments. -/
def net (x0 : FVec Ideal ⟨2, ![1000000, 5]⟩ .f32) (x1 : IVec ⟨2, ![2, 32000000]⟩ 32) (x2 : FVec Ideal ⟨2, ![5, 5]⟩ .f32)
    (x3 : FVec Ideal ⟨1, ![5]⟩ .f32) (x4 : FVec Ideal ⟨2, ![5, 5]⟩ .f32) (x5 : FVec Ideal ⟨1, ![5]⟩ .f32)
    (x6 : FVec Ideal ⟨2, ![5, 1]⟩ .f32) (x7 : FVec Ideal ⟨1, ![1]⟩ .f32) : FVec Ideal ⟨2, ![1000000, 1]⟩ .f32 :=
  fun i => Cert.Gcn.G (Cert.KernelIdeal.Fold.wrapCol (Cert.KernelIdeal.Fold.srcOf x1))
    (Cert.KernelIdeal.Fold.col (Cert.KernelIdeal.Fold.dstOf x1)) (Cert.KernelIdeal.Fold.wrapCol (Cert.KernelIdeal.Fold.dstOf x1))
    (fun n => Cert.KernelIdeal.Fold.disOf x1 (ix1 n)) (fun n k => x0 (ix2 n k)) (fun k c => x2 (ix2 k c)) (fun k => x3 (ix1 k))
    (fun k c => x4 (ix2 k c)) (fun k => x5 (ix1 k)) (fun k => x6 (ix2 k 0)) (x7 (ix1 0)) (i 0)

section Results
variable (x0 : FVec Ideal ⟨2, ![1000000, 5]⟩ .f32) (x1 : IVec ⟨2, ![2, 32000000]⟩ 32) (x2 : FVec Ideal ⟨2, ![5, 5]⟩ .f32)
    (x3 : FVec Ideal ⟨1, ![5]⟩ .f32) (x4 : FVec Ideal ⟨2, ![5, 5]⟩ .f32) (x5 : FVec Ideal ⟨1, ![5]⟩ .f32)
    (x6 : FVec Ideal ⟨2, ![5, 1]⟩ .f32) (x7 : FVec Ideal ⟨1, ![1]⟩ .f32)

/-- The kernel program's result term is the network's output. -/
theorem kernel_net : Cert.KernelIdeal.Fold.result x0 x1 x2 x3 x4 x5 x6 x7 = net x0 x1 x2 x3 x4 x5 x6 x7 :=
  funext fun i => (congrArg (Cert.KernelIdeal.Fold.result x0 x1 x2 x3 x4 x5 x6 x7) (eq_ix2 i)).trans
    (Cert.KernelIdeal.Bridge.value x0 x1 x2 x3 x4 x5 x6 x7 (i 0) (i 1))

/-- The reference's result term is the network's output. -/
theorem reference_net : Cert.ReferenceIdeal.ReadP.val_main_v84 (F := Ideal) x0 x1 x2 x3 x4 x5 x6 x7 = net x0 x1 x2 x3 x4 x5 x6 x7 :=
  funext fun i => (congrArg (Cert.ReferenceIdeal.ReadP.val_main_v84 (F := Ideal) x0 x1 x2 x3 x4 x5 x6 x7) (eq_ix2 i)).trans
    ((Cert.ReferenceIdeal.RefValue.value x0 x1 x2 x3 x4 x5 x6 x7 (i 0) (i 1)).trans (by
      unfold net
      rw [same_src x1, same_dst x1, same_wdst x1, same_dis x1]))

end Results

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the network's output of the arguments they agree on. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩)
      (Cert.KernelIdeal.Run.run_result (F := Ideal) m ρ)
    exact (Cert.KernelIdeal.Fold.W8_v41 m ρ c).trans (kernel_net _ _ _ _ _ _ _ _)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v84_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact reference_net _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
